-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x1x16x16 : Shape := ⟨5, ![2, 1, 1, 16, 16]⟩
abbrev S2x524288x1x16 : Shape := ⟨4, ![2, 524288, 1, 16]⟩
abbrev S2x1x524288x16 : Shape := ⟨4, ![2, 1, 524288, 16]⟩
abbrev S2x524288 : Shape := ⟨2, ![2, 524288]⟩
abbrev S_ : Shape := ⟨0, ![]⟩

class Facts : Prop where
  bcast_S_S2x1x1x16x16 : S_.BroadcastsInDim S2x1x1x16x16 (![] : Fin 0 → Fin S2x1x1x16x16.rank)
  reducesTo_S2x1x1x16x16_S_d0_1_2_3_4 : S2x1x1x16x16.ReducesTo [0, 1, 2, 3, 4] S_
  h_S_ : 0 < S_.numel
  bcast_S_S2x524288x1x16 : S_.BroadcastsInDim S2x524288x1x16 (![] : Fin 0 → Fin S2x524288x1x16.rank)
  reducesTo_S2x524288x1x16_S_d0_1_2_3 : S2x524288x1x16.ReducesTo [0, 1, 2, 3] S_
  bcast_S_S2x1x524288x16 : S_.BroadcastsInDim S2x1x524288x16 (![] : Fin 0 → Fin S2x1x524288x16.rank)
  reducesTo_S2x1x524288x16_S_d0_1_2_3 : S2x1x524288x16.ReducesTo [0, 1, 2, 3] S_
  bcast_S_S2x524288 : S_.BroadcastsInDim S2x524288 (![] : Fin 0 → Fin S2x524288.rank)
  reducesTo_S2x524288_S_d0_1 : S2x524288.ReducesTo [0, 1] S_

variable [Facts]

def fn_part1 {F : FTy → Type} [FloatOps F] (main_v13 : IVec S_ 1) (main_v16 : IVec S2x524288 1) : IVec S_ 1 :=
  let main_c_5 : IVec S_ 1 := constantI S_ 1 1#1
  let main_v17 : IVec S_ 1 := (fun x v => Host.reduce IntOp.andi x v reducesTo_S2x524288_S_d0_1 h_S_) main_v16 main_c_5
  let main_v18 : IVec S_ 1 := andi main_v13 main_v17
  main_v18

def fn {F : FTy → Type} [FloatOps F] (main_arg0 : FVec F S2x1x1x16x16 .f32) (main_arg1 : FVec F S2x524288x1x16 .f32) (main_arg2 : FVec F S2x1x524288x16 .f32) (main_arg3 : FVec F S2x524288 .f32) : IVec S_ 1 :=
  let main_v0 : FVec F S2x1x1x16x16 .f32 := Host.absf main_arg0
  let main_cst : FVec F S_ .f32 := constant S_ .f32 0x7F800000#32
  let main_v1 : FVec F S2x1x1x16x16 .f32 := broadcastInDim S2x1x1x16x16 ![] bcast_S_S2x1x1x16x16 main_cst
  let main_v2 : IVec S2x1x1x16x16 1 := cmpf .olt main_v0 main_v1
  let main_c : IVec S_ 1 := constantI S_ 1 1#1
  let main_v3 : IVec S_ 1 := (fun x v => Host.reduce IntOp.andi x v reducesTo_S2x1x1x16x16_S_d0_1_2_3_4 h_S_) main_v2 main_c
  let main_v4 : FVec F S2x524288x1x16 .f32 := Host.absf main_arg1
  let main_cst_0 : FVec F S_ .f32 := constant S_ .f32 0x7F800000#32
  let main_v5 : FVec F S2x524288x1x16 .f32 := broadcastInDim S2x524288x1x16 ![] bcast_S_S2x524288x1x16 main_cst_0
  let main_v6 : IVec S2x524288x1x16 1 := cmpf .olt main_v4 main_v5
  let main_c_1 : IVec S_ 1 := constantI S_ 1 1#1
  let main_v7 : IVec S_ 1 := (fun x v => Host.reduce IntOp.andi x v reducesTo_S2x524288x1x16_S_d0_1_2_3 h_S_) main_v6 main_c_1
  let main_v8 : IVec S_ 1 := andi main_v3 main_v7
  let main_v9 : FVec F S2x1x524288x16 .f32 := Host.absf main_arg2
  let main_cst_2 : FVec F S_ .f32 := constant S_ .f32 0x7F800000#32
  let main_v10 : FVec F S2x1x524288x16 .f32 := broadcastInDim S2x1x524288x16 ![] bcast_S_S2x1x524288x16 main_cst_2
  let main_v11 : IVec S2x1x524288x16 1 := cmpf .olt main_v9 main_v10
  let main_c_3 : IVec S_ 1 := constantI S_ 1 1#1
  let main_v12 : IVec S_ 1 := (fun x v => Host.reduce IntOp.andi x v reducesTo_S2x1x524288x16_S_d0_1_2_3 h_S_) main_v11 main_c_3
  let main_v13 : IVec S_ 1 := andi main_v8 main_v12
  let main_v14 : FVec F S2x524288 .f32 := Host.absf main_arg3
  let main_cst_4 : FVec F S_ .f32 := constant S_ .f32 0x7F800000#32
  let main_v15 : FVec F S2x524288 .f32 := broadcastInDim S2x524288 ![] bcast_S_S2x524288 main_cst_4
  let main_v16 : IVec S2x524288 1 := cmpf .olt main_v14 main_v15
  fn_part1 (F := F) main_v13 main_v16
-- ==== Kernel.lean ====
abbrev S2x1x1x16x16 : Shape := ⟨5, ![2, 1, 1, 16, 16]⟩
abbrev S2x524288x1x16 : Shape := ⟨4, ![2, 524288, 1, 16]⟩
abbrev S2x1x524288x16 : Shape := ⟨4, ![2, 1, 524288, 16]⟩
abbrev S2x524288 : Shape := ⟨2, ![2, 524288]⟩
abbrev S2x524288x16 : Shape := ⟨3, ![2, 524288, 16]⟩
abbrev S2x16x16 : Shape := ⟨3, ![2, 16, 16]⟩
abbrev S2x2x16x16 : Shape := ⟨4, ![2, 2, 16, 16]⟩
abbrev S2x32768x16 : Shape := ⟨3, ![2, 32768, 16]⟩
abbrev S2x32768 : Shape := ⟨2, ![2, 32768]⟩
abbrev S1x2x16x16 : Shape := ⟨4, ![1, 2, 16, 16]⟩
abbrev S16x16 : Shape := ⟨2, ![16, 16]⟩
abbrev S1x32768 : Shape := ⟨2, ![1, 32768]⟩
abbrev S32768 : Shape := ⟨1, ![32768]⟩
abbrev S1x32768x16 : Shape := ⟨3, ![1, 32768, 16]⟩
abbrev S32768x16 : Shape := ⟨2, ![32768, 16]⟩
abbrev S32768x1 : Shape := ⟨2, ![32768, 1]⟩
abbrev S1x1x16x16 : Shape := ⟨4, ![1, 1, 16, 16]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S2x1x1x16x16, .f32⟩
  | .hbm, ⟨1, _⟩ => ⟨S2x524288x1x16, .f32⟩
  | .hbm, ⟨2, _⟩ => ⟨S2x1x524288x16, .f32⟩
  | .hbm, ⟨3, _⟩ => ⟨S2x524288, .f32⟩
  | .hbm, ⟨4, _⟩ => ⟨S2x524288x16, .f32⟩
  | .hbm, ⟨5, _⟩ => ⟨S2x524288x16, .f32⟩
  | .hbm, ⟨6, _⟩ => ⟨S2x16x16, .f32⟩
  | .hbm, ⟨7, _⟩ => ⟨S2x2x16x16, .f32⟩
  | .hbm, ⟨8, _⟩ => ⟨S_, .f32⟩
  | .hbm, ⟨9, _⟩ => ⟨S2x16x16, .f32⟩
  | .hbm, ⟨10, _⟩ => ⟨S2x16x16, .f32⟩
  | .local _ .vmem, ⟨0, _⟩ => ⟨S2x32768x16, .f32⟩
  | .local _ .vmem, ⟨1, _⟩ => ⟨S2x32768x16, .f32⟩
  | .local _ .vmem, ⟨2, _⟩ => ⟨S2x32768x16, .f32⟩
  | .local _ .vmem, ⟨3, _⟩ => ⟨S2x32768x16, .f32⟩
  | .local _ .vmem, ⟨4, _⟩ => ⟨S2x32768, .f32⟩
  | .local _ .vmem, ⟨5, _⟩ => ⟨S2x32768, .f32⟩
  | .local _ .vmem, ⟨6, _⟩ => ⟨S1x2x16x16, .f32⟩
  | .local _ .vmem, ⟨7, _⟩ => ⟨S1x2x16x16, .f32⟩
  | .local _ .vmem, ⟨8, _⟩ => ⟨S16x16, .f32⟩
  | .local _ .vmem, ⟨9, _⟩ => ⟨S16x16, .f32⟩
  | _, _ => ⟨S2x1x1x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_26 : BitVec 32 := 0#32
  let v49 : BitVec 1 := Scalar.cmpi .ne v48 c0_i32_26
  v49

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x32768x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32768x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x524288x1x16_S2x524288x16 : S2x524288x1x16.ShapeCasts S2x524288x16
  shapeCasts_S2x1x524288x16_S2x524288x16 : S2x1x524288x16.ShapeCasts S2x524288x16
  shapeCasts_S2x1x1x16x16_S2x16x16 : S2x1x1x16x16.ShapeCasts S2x16x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S2x32768_S1x32768_0_0 : ∀ a, (![0, 0] : Fin 2 → Nat) a + S1x32768.size a ≤ S2x32768.size a
  h_S1x32768 : 0 < S1x32768.numel
  shapeCasts_S1x32768_S32768 : S1x32768.ShapeCasts S32768
  inb_S2x32768_S1x32768_1_0 : ∀ a, (![1, 0] : Fin 2 → Nat) a + S1x32768.size a ≤ S2x32768.size a
  inb_S2x32768x16_S1x32768x16_0_0_0 : ∀ a, (![0, 0, 0] : Fin 3 → Nat) a + S1x32768x16.size a ≤ S2x32768x16.size a
  h_S1x32768x16 : 0 < S1x32768x16.numel
  shapeCasts_S1x32768x16_S32768x16 : S1x32768x16.ShapeCasts S32768x16
  inb_S2x32768x16_S1x32768x16_1_0_0 : ∀ a, (![1, 0, 0] : Fin 3 → Nat) a + S1x32768x16.size a ≤ S2x32768x16.size a
  shapeCasts_S32768_S32768x1 : S32768.ShapeCasts S32768x1
  broadcasts_S32768x1_S32768x16 : S32768x1.Broadcasts S32768x16
  inb_S1x2x16x16_S1x1x16x16_0_0_0_0 : ∀ a, (![0, 0, 0, 0] : Fin 4 → Nat) a + S1x1x16x16.size a ≤ S1x2x16x16.size a
  h_S1x1x16x16 : 0 < S1x1x16x16.numel
  shapeCasts_S1x1x16x16_S16x16 : S1x1x16x16.ShapeCasts S16x16
  shapeCasts_S16x16_S1x1x16x16 : S16x16.ShapeCasts S1x1x16x16
  inb_S1x2x16x16_S1x1x16x16_0_1_0_0 : ∀ a, (![0, 1, 0, 0] : Fin 4 → Nat) a + S1x1x16x16.size a ≤ S1x2x16x16.size a
  reducesTo_S2x2x16x16_S2x16x16_d0 : S2x2x16x16.ReducesTo [0] S2x16x16
  h_S_ : 0 < S_.numel
  dot_S32768x16_S32768x16_S16x16_0_0_1_1_n_n_wf : DotDims.WF S32768x16 S32768x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768x16.size a ≤ S2x524288x16.size a
  hwx0_0 : ∀ i : grid0.Coords, EltTy.bits .f32 = 32 ∨ (Rect.block (s := S2x524288x16) S2x32768x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32768x16.size a ≤ S2x524288x16.size a
  hwx0_1 : ∀ i : grid0.Coords, EltTy.bits .f32 = 32 ∨ (Rect.block (s := S2x524288x16) S2x32768x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x32768.size a ≤ S2x524288.size a
  hwx0_2 : ∀ i : grid0.Coords, EltTy.bits .f32 = 32 ∨ (Rect.block (s := S2x524288) S2x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x16x16.size a ≤ S2x2x16x16.size a
  hwx0_3 : ∀ i : grid0.Coords, EltTy.bits .f32 = 32 ∨ (Rect.block (s := S2x2x16x16) S1x2x16x16.size (cc0_transform_3 i) (hinb0_3 i)).WholeWords (EltTy.packing .f32)

variable [Facts₀]

def dot_S32768x16_S32768x16_S16x16_0_0_1_1_n_n : DotDims S32768x16 S32768x16 S16x16 where
  lhsContracting := [0]
  rhsContracting := [0]
  lhsNonContracting := [1]
  rhsNonContracting := [1]
  lhsBatch := []
  rhsBatch := []
  wf := dot_S32768x16_S32768x16_S16x16_0_0_1_1_n_n_wf

abbrev win0_0 : Pipeline.Window sig grid0 :=
  Pipeline.Window.ofSpec (Memref.whole main_v0) S2x32768x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x32768x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x1x1x16x16 : Shape := ⟨5, ![2, 1, 1, 16, 16]⟩
abbrev S2x524288x1x16 : Shape := ⟨4, ![2, 524288, 1, 16]⟩
abbrev S2x1x524288x16 : Shape := ⟨4, ![2, 1, 524288, 16]⟩
abbrev S2x524288 : Shape := ⟨2, ![2, 524288]⟩
abbrev S1x524288 : Shape := ⟨2, ![1, 524288]⟩
abbrev S524288 : Shape := ⟨1, ![524288]⟩
abbrev S1x1x524288x16 : Shape := ⟨4, ![1, 1, 524288, 16]⟩
abbrev S524288x16 : Shape := ⟨2, ![524288, 16]⟩
abbrev S1x524288x1x16 : Shape := ⟨4, ![1, 524288, 1, 16]⟩
abbrev S524288x1 : Shape := ⟨2, ![524288, 1]⟩
abbrev S16x16 : Shape := ⟨2, ![16, 16]⟩
abbrev S2x16x16 : Shape := ⟨3, ![2, 16, 16]⟩
abbrev S1x16x16 : Shape := ⟨3, ![1, 16, 16]⟩

abbrev nBuf : Space → Nat
  | .hbm => 43
  | .vmem => 0
  | .smem => 0
  | _ => 0

abbrev bufTy : (tb : Table) → Fin (tcTables nBuf tb) → BufTy
  | .hbm, ⟨0, _⟩ => ⟨S2x1x1x16x16, .f32⟩
  | .hbm, ⟨1, _⟩ => ⟨S2x524288x1x16, .f32⟩
  | .hbm, ⟨2, _⟩ => ⟨S2x1x524288x16, .f32⟩
  | .hbm, ⟨3, _⟩ => ⟨S2x524288, .f32⟩
  | .hbm, ⟨4, _⟩ => ⟨S1x524288, .f32⟩
  | .hbm, ⟨5, _⟩ => ⟨S524288, .f32⟩
  | .hbm, ⟨6, _⟩ => ⟨S524288, .f32⟩
  | .hbm, ⟨7, _⟩ => ⟨S1x524288, .f32⟩
  | .hbm, ⟨8, _⟩ => ⟨S524288, .f32⟩
  | .hbm, ⟨9, _⟩ => ⟨S524288, .f32⟩
  | .hbm, ⟨10, _⟩ => ⟨S1x1x524288x16, .f32⟩
  | .hbm, ⟨11, _⟩ => ⟨S524288x16, .f32⟩
  | .hbm, ⟨12, _⟩ => ⟨S1x1x524288x16, .f32⟩
  | .hbm, ⟨13, _⟩ => ⟨S524288x16, .f32⟩
  | .hbm, ⟨14, _⟩ => ⟨S1x524288x1x16, .f32⟩
  | .hbm, ⟨15, _⟩ => ⟨S524288x16, .f32⟩
  | .hbm, ⟨16, _⟩ => ⟨S1x524288x1x16, .f32⟩
  | .hbm, ⟨17, _⟩ => ⟨S524288x16, .f32⟩
  | .hbm, ⟨18, _⟩ => ⟨S524288x1, .f32⟩
  | .hbm, ⟨19, _⟩ => ⟨S524288x16, .f32⟩
  | .hbm, ⟨20, _⟩ => ⟨S524288x16, .f32⟩
  | .hbm, ⟨21, _⟩ => ⟨S524288x1, .f32⟩
  | .hbm, ⟨22, _⟩ => ⟨S524288x16, .f32⟩
  | .hbm, ⟨23, _⟩ => ⟨S524288x16, .f32⟩
  | .hbm, ⟨24, _⟩ => ⟨S524288x16, .f32⟩
  | .hbm, ⟨25, _⟩ => ⟨S524288x1, .f32⟩
  | .hbm, ⟨26, _⟩ => ⟨S524288x16, .f32⟩
  | .hbm, ⟨27, _⟩ => ⟨S524288x16, .f32⟩
  | .hbm, ⟨28, _⟩ => ⟨S524288x1, .f32⟩
  | .hbm, ⟨29, _⟩ => ⟨S524288x16, .f32⟩
  | .hbm, ⟨30, _⟩ => ⟨S524288x16, .f32⟩
  | .hbm, ⟨31, _⟩ => ⟨S524288x16, .f32⟩
  | .hbm, ⟨32, _⟩ => ⟨S16x16, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S2x16x16, .f32⟩
  | .hbm, ⟨39, _⟩ => ⟨S1x16x16, .f32⟩
  | .hbm, ⟨40, _⟩ => ⟨S1x16x16, .f32⟩
  | .hbm, ⟨41, _⟩ => ⟨S2x16x16, .f32⟩
  | .hbm, ⟨42, _⟩ => ⟨S2x16x16, .f32⟩
  | _, _ => ⟨S2x1x1x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  slices_S2x1x524288x16_S1x1x524288x16_0_0_0_0 : S2x1x524288x16.Slices ![0, 0, 0, 0] S1x1x524288x16
  shapeCasts_S1x1x524288x16_S524288x16 : S1x1x524288x16.ShapeCasts S524288x16
  slices_S2x1x524288x16_S1x1x524288x16_1_0_0_0 : S2x1x524288x16.Slices ![1, 0, 0, 0] S1x1x524288x16
  slices_S2x524288x1x16_S1x524288x1x16_0_0_0_0 : S2x524288x1x16.Slices ![0, 0, 0, 0] S1x524288x1x16
  shapeCasts_S1x524288x1x16_S524288x16 : S1x524288x1x16.ShapeCasts S524288x16
  slices_S2x524288x1x16_S1x524288x1x16_1_0_0_0 : S2x524288x1x16.Slices ![1, 0, 0, 0] S1x524288x1x16
  bcast_S524288_S524288x1_0 : S524288.BroadcastsInDim S524288x1 (![0] : Fin 1 → Fin S524288x1.rank)
  bcast_S524288x1_S524288x16_0_1 : S524288x1.BroadcastsInDim S524288x16 (![0, 1] : Fin 2 → Fin S524288x16.rank)
  shapeCasts_S2x1x1x16x16_S2x16x16 : S2x1x1x16x16.ShapeCasts S2x16x16
  bcast_S16x16_S1x16x16_1_2 : S16x16.BroadcastsInDim S1x16x16 (![1, 2] : Fin 2 → Fin S1x16x16.rank)
  concatenates_S1x16x16_S1x16x16_S2x16x16_d0 : Shape.Concatenates [S1x16x16, S1x16x16] S2x16x16 0
  dot_S524288x16_S524288x16_S16x16_0_0_1_1_n_n_wf : DotDims.WF S524288x16 S524288x16 S16x16 [0] [0] [1] [1] [] []

variable [Facts₀]

def dot_S524288x16_S524288x16_S16x16_0_0_1_1_n_n : DotDims S524288x16 S524288x16 S16x16 where
  lhsContracting := [0]
  rhsContracting := [0]
  lhsNonContracting := [1]
  rhsNonContracting := [1]
  lhsBatch := []
  rhsBatch := []
  wf := dot_S524288x16_S524288x16_S16x16_0_0_1_1_n_n_wf

class Facts : Prop extends Facts₀ where

variable [Facts]
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«101659_j45552423141376_1_alg».proof.Proof.LibReal
import proofs.«101659_j45552423141376_1_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.FiniteArgs.lean ====
/-
  The precondition, read back: every entry of every argument is a real number.

  The stated precondition is the conjunction, by `and` on one-bit words, of four tests `all (|x| < +∞)`, one per
  argument. A conjunction of one-bit words is 1 exactly when both are; and a test `all (|x| < +∞)` that is 1 makes every
  entry of `x` an extended real that is neither infinity.
-/
import proofs.«101659_j45552423141376_1_alg».proof.Pre_finite_inputs
import proofs.«101659_j45552423141376_1_alg».proof.Proof.LibFinite
import Idealize.ShloMosaic.Lib.Affine
import Idealize.ShloMosaic.Lib.ValueIdx

noncomputable section

namespace Cert.FiniteArgs

open Idealize.ShloMosaic Cert.Pre_finite_inputs Cert.LibReal

variable [Cert.Pre_finite_inputs.Facts]

theorem isR_of_pre (x0 : FVec Ideal S2x1x1x16x16 .f32) (x1 : FVec Ideal S2x524288x1x16 .f32) (x2 : FVec Ideal S2x1x524288x16 .f32)
    (x3 : FVec Ideal S2x524288 .f32) (h : Cert.Pre_finite_inputs.fn (F := Ideal) x0 x1 x2 x3 = fun _ => 1#1) :
    (∀ y, IsR (x0 y)) ∧ (∀ y, IsR (x1 y)) ∧ (∀ y, IsR (x2 y)) ∧ (∀ y, IsR (x3 y)) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun y => Cert.LibFinite.isR_of_all_finite x0 _ _ _ _ h1 y, fun y => Cert.LibFinite.isR_of_all_finite x1 _ _ _ _ h2 y,
    fun y => Cert.LibFinite.isR_of_all_finite x2 _ _ _ _ h3 y, fun y => Cert.LibFinite.isR_of_all_finite x3 _ _ _ _ h4 y⟩

end Cert.FiniteArgs

end
-- ==== Proof.CaseValue.lean ====
/-
  What each control case of the kernel body leaves behind, as values.

  The body has three cases over a half's eight tiles: the first tile (the accumulators are reset to zero, then
  updated), a middle tile (updated), the last tile (updated, then copied to the output block: the real accumulator to
  plane 0, the imaginary one to plane 1). An update adds the tile's product to what the accumulator held; the tile's
  operands are the two planes of each `[2, 32768, 16]` block and the two rows of the `[2, 32768]` block of angles, read
  through unit-stride rectangles at offset 0 or 1 along the leading axis.
-/
import proofs.«101659_j45552423141376_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Cases

open Idealize.ShloMosaic Idealize.ShloMosaic.TcCoe Idealize.ShloMosaic.ValueIdx Idealize.SL.Sem Cert.KernelIdeal Cert.KernelIdeal.Gen

variable {F : FTy → Type} [FloatOps F]

theorem hz2 : (![0, 0] : Fin 2 → Nat) = fun _ => 0 := funext fun a => by fin_cases a <;> rfl

/-- Row 0 and row 1 of the block of angles, plane 0 and plane 1 of an operand block: the rectangles the body loads through. -/
abbrev rowRect0 : Rect S2x32768 := Rect.unit (s := S2x32768) ![0, 0] S1x32768.size inb_S2x32768_S1x32768_0_0
abbrev rowRect1 : Rect S2x32768 := Rect.unit (s := S2x32768) ![1, 0] S1x32768.size inb_S2x32768_S1x32768_1_0
abbrev planeRect0 : Rect S2x32768x16 := Rect.unit (s := S2x32768x16) ![0, 0, 0] S1x32768x16.size inb_S2x32768x16_S1x32768x16_0_0_0
abbrev planeRect1 : Rect S2x32768x16 := Rect.unit (s := S2x32768x16) ![1, 0, 0] S1x32768x16.size inb_S2x32768x16_S1x32768x16_1_0_0

/-- The real accumulator after an update: what it held (`acc`) plus the tile's real product. -/
def stepRe (x0 x1 : Vec F S2x32768x16 .f32) (x2 : Vec F S2x32768 .f32) (acc : Vec F S16x16 .f32) : FVec F S16x16 .f32 :=
  k0_pay1 acc (k0_pay15 (View.ld x2 rowRect0) (View.ld x2 rowRect1) (View.ld x0 planeRect0) (View.ld x0 planeRect1)
    (View.ld x1 planeRect0) (View.ld x1 planeRect1))

/-- The imaginary accumulator after an update. -/
def stepIm (x0 x1 : Vec F S2x32768x16 .f32) (x2 : Vec F S2x32768 .f32) (acc : Vec F S16x16 .f32) : FVec F S16x16 .f32 :=
  k0_pay2 (k0_pay9 (View.ld x0 planeRect0)) (k0_pay10 (View.ld x0 planeRect1))
    (k0_pay13 (View.ld x2 rowRect0) (View.ld x2 rowRect1) (View.ld x1 planeRect0) (View.ld x1 planeRect1))
    (k0_pay14 (View.ld x2 rowRect0) (View.ld x2 rowRect1) (View.ld x1 planeRect0) (View.ld x1 planeRect1)) acc

/-! ## The accumulators -/

/-- First tile: the real accumulator is zeroed, then updated. -/
theorem accRe_first (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : cond0_0 i) (hc1 : ¬cond0_1 i)
    (x0 x1 : Vec F S2x32768x16 .f32) (x2 : Vec F S2x32768 .f32) :
    sout0_A_0 c i a2 h2 a3 h3 a4 h4 a5 h5 a6 h6 a7 h7 hc0 hc1 x0 x1 x2 = stepRe x0 x1 x2 (k0_pay5 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S16x16) hz2, View.readCov_unit_zero (S := S16x16) _ hz2]
  simp only [View.readAt_eq_ld, h2.read_unread, h3.read_unread, h4.read_unread, h6.read_unread, h7.read_unread,
    View.ld_unit_zero (S := S16x16) hz2]
  rfl

/-- First tile: the imaginary accumulator is zeroed, then updated. -/
theorem accIm_first (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : cond0_0 i) (hc1 : ¬cond0_1 i)
    (x0 x1 : Vec F S2x32768x16 .f32) (x2 : Vec F S2x32768 .f32) :
    sout0_A_1 c i a2 h2 a3 h3 a4 h4 a5 h5 a6 h6 a7 h7 hc0 hc1 x0 x1 x2 = stepIm x0 x1 x2 (k0_pay6 (F := F)) := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S16x16) hz2, View.readCov_unit_zero (S := S16x16) _ hz2]
  simp only [View.readAt_eq_ld, h2.read_unread, h3.read_unread, h4.read_unread, h6.read_unread, h7.read_unread,
    View.ld_unit_zero (S := S16x16) hz2]
  rfl

/-- Middle tile: the real accumulator is updated. -/
theorem accRe_mid (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : ¬cond0_1 i)
    (x0 x1 : Vec F S2x32768x16 .f32) (x2 : Vec F S2x32768 .f32) (xs0 xs1 : Vec F S16x16 .f32) :
    sout0_B_0 c i a2 h2 a3 h3 a4 h4 a5 h5 a6 h6 a7 h7 hc0 hc1 x0 x1 x2 xs0 xs1 = stepRe x0 x1 x2 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  sl_unfold_words
  rw [View.canon_unit_zero hz2]
  simp only [View.readAt_eq_ld, h2.read_unread, h3.read_unread, h4.read_unread, h6.read_unread, h7.read_unread,
    View.ld_unit_zero (S := S16x16) hz2]
  rfl

/-- Middle tile: the imaginary accumulator is updated. -/
theorem accIm_mid (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : ¬cond0_1 i)
    (x0 x1 : Vec F S2x32768x16 .f32) (x2 : Vec F S2x32768 .f32) (xs0 xs1 : Vec F S16x16 .f32) :
    sout0_B_1 c i a2 h2 a3 h3 a4 h4 a5 h5 a6 h6 a7 h7 hc0 hc1 x0 x1 x2 xs0 xs1 = stepIm x0 x1 x2 xs1 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  sl_unfold_words
  rw [View.canon_unit_zero hz2]
  simp only [View.readAt_eq_ld, h2.read_unread, h3.read_unread, h4.read_unread, h6.read_unread, h7.read_unread,
    View.ld_unit_zero (S := S16x16) hz2]
  rfl

/-- Last tile: the real accumulator is updated. -/
theorem accRe_last (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : cond0_1 i)
    (x0 x1 : Vec F S2x32768x16 .f32) (x2 : Vec F S2x32768 .f32) (xs0 xs1 : Vec F S16x16 .f32) :
    sout0_C_0 c i a2 h2 a3 h3 a4 h4 a5 h5 a6 h6 a7 h7 hc0 hc1 x0 x1 x2 xs0 xs1 = stepRe x0 x1 x2 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread,
    View.ld_unit_zero (S := S16x16) hz2]
  rfl

/-- Last tile: the imaginary accumulator is updated. -/
theorem accIm_last (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : cond0_1 i)
    (x0 x1 : Vec F S2x32768x16 .f32) (x2 : Vec F S2x32768 .f32) (xs0 xs1 : Vec F S16x16 .f32) :
    sout0_C_1 c i a2 h2 a3 h3 a4 h4 a5 h5 a6 h6 a7 h7 hc0 hc1 x0 x1 x2 xs0 xs1 = stepIm x0 x1 x2 xs1 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread,
    View.ld_unit_zero (S := S16x16) hz2]
  rfl

/-! ## The output block at the last tile -/

/-- A `[16, 16]` block given two leading unit axes reads, at `(0, 0, p, q)`, the block at `(p, q)`. -/
theorem cast_11_apply {α : Type} (v : S16x16.Idx → α) (p q : Fin 16) :
    shapeCast S1x1x16x16 v shapeCasts_S16x16_S1x1x16x16 (ix4 (0 : Fin 1) (0 : Fin 1) p q) = v (ix2 p q) :=
  shapeCast_apply v shapeCasts_S16x16_S1x1x16x16 _ _ (by
    rw [Shape.rowMajor_val_two, Shape.rowMajor_val_four]
    show p.val * 16 + q.val = ((0 * 1 + 0) * 16 + p.val) * 16 + q.val
    omega)

/-- The two planes of the output block: the rectangles the last tile stores through. -/
abbrev outRect0 : Rect S1x2x16x16 := Rect.unit (s := S1x2x16x16) ![0, 0, 0, 0] S1x1x16x16.size inb_S1x2x16x16_S1x1x16x16_0_0_0_0
abbrev outRect1 : Rect S1x2x16x16 := Rect.unit (s := S1x2x16x16) ![0, 1, 0, 0] S1x1x16x16.size inb_S1x2x16x16_S1x1x16x16_0_1_0_0

theorem plane0_eq (p q : Fin 16) :
    (ix4 (0 : Fin 1) (0 : Fin 2) p q : S1x2x16x16.Idx) = outRect0.emb (ix4 (0 : Fin 1) (0 : Fin 1) p q) :=
  funext fun a => Fin.ext (by
    match a with
    | ⟨0, _⟩ => rfl
    | ⟨1, _⟩ => rfl
    | ⟨2, _⟩ => show p.val = 0 + 1 * p.val; omega
    | ⟨3, _⟩ => show q.val = 0 + 1 * q.val; omega)

theorem plane1_eq (p q : Fin 16) :
    (ix4 (0 : Fin 1) (1 : Fin 2) p q : S1x2x16x16.Idx) = outRect1.emb (ix4 (0 : Fin 1) (0 : Fin 1) p q) :=
  funext fun a => Fin.ext (by
    match a with
    | ⟨0, _⟩ => rfl
    | ⟨1, _⟩ => rfl
    | ⟨2, _⟩ => show p.val = 0 + 1 * p.val; omega
    | ⟨3, _⟩ => show q.val = 0 + 1 * q.val; omega)

theorem plane0_not_mem (p q : Fin 16) : (ix4 (0 : Fin 1) (0 : Fin 2) p q : S1x2x16x16.Idx) ∉ outRect1.set :=
  fun h => Nat.not_succ_le_zero 0 ((Rect.mem_set_unit.mp h) 1).1

/-- Of two planes stored into the block, plane 0 reads the store at offset `(0, 0, 0, 0)`, -/
theorem canon_plane0 {Val : EltTy → Type} [∀ e, Nonempty (Val e)] (w1 : outRect1.shape.Idx → Val .f32) (w0 : outRect0.shape.Idx → Val .f32)
    (p q : Fin 16) :
    View.canon [(⟨outRect1, w1⟩ : View.Piece Val S1x2x16x16 .f32), ⟨outRect0, w0⟩] (ix4 (0 : Fin 1) (0 : Fin 2) p q)
      = w0 (ix4 (0 : Fin 1) (0 : Fin 1) p q) :=
  (View.canon_cons_of_not_mem (⟨outRect1, w1⟩ : View.Piece Val S1x2x16x16 .f32) [⟨outRect0, w0⟩] (plane0_not_mem p q)).trans
    ((congrArg (View.canon [(⟨outRect0, w0⟩ : View.Piece Val S1x2x16x16 .f32)]) (plane0_eq p q)).trans
      (View.canon_cons_emb outRect0 w0 [] (ix4 (0 : Fin 1) (0 : Fin 1) p q)))

/-- and plane 1 the store at offset `(0, 1, 0, 0)`. -/
theorem canon_plane1 {Val : EltTy → Type} [∀ e, Nonempty (Val e)] (w1 : outRect1.shape.Idx → Val .f32) (w0 : outRect0.shape.Idx → Val .f32)
    (p q : Fin 16) :
    View.canon [(⟨outRect1, w1⟩ : View.Piece Val S1x2x16x16 .f32), ⟨outRect0, w0⟩] (ix4 (0 : Fin 1) (1 : Fin 2) p q)
      = w1 (ix4 (0 : Fin 1) (0 : Fin 1) p q) :=
  (congrArg (View.canon [(⟨outRect1, w1⟩ : View.Piece Val S1x2x16x16 .f32), ⟨outRect0, w0⟩]) (plane1_eq p q)).trans
    (View.canon_cons_emb outRect1 w1 [⟨outRect0, w0⟩] (ix4 (0 : Fin 1) (0 : Fin 1) p q))

/-- Last tile: plane 0 of the output block is the updated real accumulator. -/
theorem out_last_re (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : cond0_1 i)
    (x0 x1 : Vec F S2x32768x16 .f32) (x2 : Vec F S2x32768 .f32) (xs0 xs1 : Vec F S16x16 .f32) (p q : Fin 16) :
    out0_C_3 c i a2 h2 a3 h3 a4 h4 a5 h5 a6 h6 a7 h7 hc0 hc1 x0 x1 x2 xs0 xs1 (ix4 (0 : Fin 1) (0 : Fin 2) p q) = stepRe x0 x1 x2 xs0 (ix2 p q) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.readCov_unit_zero (S := S16x16) _ hz2, View.readCov_unit_zero (S := S16x16) _ hz2]
  simp only [View.readAt_eq_ld, h2.read_unread, h3.read_unread, h4.read_unread, h6.read_unread, h7.read_unread,
    View.ld_unit_zero (S := S16x16) hz2]
  refine (canon_plane0 _ _ p q).trans ?_
  show shapeCast S1x1x16x16 (stepRe x0 x1 x2 xs0) shapeCasts_S16x16_S1x1x16x16 (ix4 (0 : Fin 1) (0 : Fin 1) p q) = _
  exact cast_11_apply _ p q

/-- Last tile: plane 1 of the output block is the updated imaginary accumulator. -/
theorem out_last_im (c : Dev nD) (i : grid0.Coords) (a2 : Memref sig .tc .vmem S2x32768x16 .f32) (h2 : a2.IsWhole) (a3 : Memref sig .tc .vmem S2x32768x16 .f32) (h3 : a3.IsWhole) (a4 : Memref sig .tc .vmem S2x32768 .f32) (h4 : a4.IsWhole) (a5 : Memref sig .tc .vmem S1x2x16x16 .f32) (h5 : a5.IsWhole) (a6 : Memref sig .tc .vmem S16x16 .f32) (h6 : a6.IsWhole) (a7 : Memref sig .tc .vmem S16x16 .f32) (h7 : a7.IsWhole) (hc0 : ¬cond0_0 i) (hc1 : cond0_1 i)
    (x0 x1 : Vec F S2x32768x16 .f32) (x2 : Vec F S2x32768 .f32) (xs0 xs1 : Vec F S16x16 .f32) (p q : Fin 16) :
    out0_C_3 c i a2 h2 a3 h3 a4 h4 a5 h5 a6 h6 a7 h7 hc0 hc1 x0 x1 x2 xs0 xs1 (ix4 (0 : Fin 1) (1 : Fin 2) p q) = stepIm x0 x1 x2 xs1 (ix2 p q) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.readCov_unit_zero (S := S16x16) _ hz2, View.readCov_unit_zero (S := S16x16) _ hz2]
  simp only [View.readAt_eq_ld, h2.read_unread, h3.read_unread, h4.read_unread, h6.read_unread, h7.read_unread,
    View.ld_unit_zero (S := S16x16) hz2]
  refine (canon_plane1 _ _ p q).trans ?_
  show shapeCast S1x1x16x16 (stepIm x0 x1 x2 xs1) shapeCasts_S16x16_S1x1x16x16 (ix4 (0 : Fin 1) (0 : Fin 1) p q) = _
  exact cast_11_apply _ p q

end Cert.KernelIdeal.Cases

end
-- ==== Proof.TileValue.lean ====
/-
  One tile of the kernel, read entry by entry over the extended reals.

  At a grid point the body holds a tile of 32768 rows: the two planes `e`, `f` of the first operand (`[32768, 16]` each),
  the two planes `a`, `b` of the second, and the two rows of angles. It rotates the second operand row by row,
      u_re (r, j) = a (r, j) * cos θ₀ r - b (r, j) * sin θ₁ r,      u_im (r, j) = a (r, j) * sin θ₁ r + b (r, j) * cos θ₀ r,
  and contracts over the tile's rows:
      re (i, j) = ∑ r, e (r, i) * u_re (r, j) - ∑ r, f (r, i) * u_im (r, j),
      im (i, j) = ∑ r, e (r, i) * u_im (r, j) + ∑ r, f (r, i) * u_re (r, j).
  Each matrix product contracts the FIRST axis of both operands (a transposed-left product), into a zero accumulator; at
  the ideal values it is the plain sum over the 32768 rows.
-/
import proofs.«101659_j45552423141376_1_alg».proof.Proof.Gen.KernelIdeal.Skeleton
import proofs.«101659_j45552423141376_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- The product of two `[32768, 16]` blocks contracting their rows, into a zero accumulator: entry `(a, b)` is the sum
    over the rows `k` of `l (k, a) * r (k, b)`. -/
theorem matmul_rows_apply (l r : FVec Ideal S32768x16 .f32) (a b : Fin 16) :
    matmul dot_S32768x16_S32768x16_S16x16_0_0_1_1_n_n none l r (constant (F := Ideal) S16x16 .f32 0x00000000#32) (ix2 a b)
      = ∑ k : Fin 32768, l (ix2 k a) * r (ix2 k b) := by
  refine (Ideal.matmul_constant_zero_apply dot_S32768x16_S32768x16_S16x16_0_0_1_1_n_n none l r (ix2 a b)).trans ?_
  rw [← Equiv.sum_comp (ValueIdx.contrEquiv1 dot_S32768x16_S32768x16_S16x16_0_0_1_1_n_n 32768 rfl rfl).symm]
  refine Finset.sum_congr rfl fun k _ => ?_
  have hk := ValueIdx.contrEquiv1_symm_val dot_S32768x16_S32768x16_S16x16_0_0_1_1_n_n 32768 rfl rfl k
  have el : dot_S32768x16_S32768x16_S16x16_0_0_1_1_n_n.lhsIdx (ix2 a b) ((ValueIdx.contrEquiv1 dot_S32768x16_S32768x16_S16x16_0_0_1_1_n_n 32768 rfl rfl).symm k) = ix2 k a :=
    funext fun ax => Fin.ext (by
      match ax with
      | ⟨0, _⟩ => exact (dot_S32768x16_S32768x16_S16x16_0_0_1_1_n_n.lhsIdx_val_of_single rfl (ix2 a b) _).trans hk
      | ⟨1, _⟩ =>
        show (dot_S32768x16_S32768x16_S16x16_0_0_1_1_n_n.lhsIdx (ix2 a b) _ 1).val = a.val
        unfold DotDims.lhsIdx
        rw [dif_neg (show ¬(1 : Fin S32768x16.rank) ∈ dot_S32768x16_S32768x16_S16x16_0_0_1_1_n_n.lhsBatch by decide),
          dif_pos (show (1 : Fin S32768x16.rank) ∈ dot_S32768x16_S32768x16_S16x16_0_0_1_1_n_n.lhsNonContracting by decide)]
        rfl)
  have er : dot_S32768x16_S32768x16_S16x16_0_0_1_1_n_n.rhsIdx (ix2 a b) ((ValueIdx.contrEquiv1 dot_S32768x16_S32768x16_S16x16_0_0_1_1_n_n 32768 rfl rfl).symm k) = ix2 k b :=
    funext fun ax => Fin.ext (by
      match ax with
      | ⟨0, _⟩ => exact (dot_S32768x16_S32768x16_S16x16_0_0_1_1_n_n.rhsIdx_val_of_single rfl (ix2 a b) _).trans hk
      | ⟨1, _⟩ =>
        show (dot_S32768x16_S32768x16_S16x16_0_0_1_1_n_n.rhsIdx (ix2 a b) _ 1).val = b.val
        unfold DotDims.rhsIdx
        rw [dif_neg (show ¬(1 : Fin S32768x16.rank) ∈ dot_S32768x16_S32768x16_S16x16_0_0_1_1_n_n.rhsBatch by decide),
          dif_pos (show (1 : Fin S32768x16.rank) ∈ dot_S32768x16_S32768x16_S16x16_0_0_1_1_n_n.rhsNonContracting by decide)]
        rfl)
  rw [el, er]

/-! ## The rotated columns and the tile's two products -/

/-- `u_re` at row `r`, column `j`: the second operand's planes `a`, `b` turned by the angles of that row. -/
def ure (th0 th1 : FVec Ideal S1x32768 .f32) (a b : FVec Ideal S1x32768x16 .f32) (r : Fin 32768) (j : Fin 16) : EReal :=
  a (ix3 (0 : Fin 1) r j) * Ideal.cos (th0 (ix2 (0 : Fin 1) r)) - b (ix3 (0 : Fin 1) r j) * Ideal.sin (th1 (ix2 (0 : Fin 1) r))

/-- `u_im` at row `r`, column `j`. -/
def uim (th0 th1 : FVec Ideal S1x32768 .f32) (a b : FVec Ideal S1x32768x16 .f32) (r : Fin 32768) (j : Fin 16) : EReal :=
  a (ix3 (0 : Fin 1) r j) * Ideal.sin (th1 (ix2 (0 : Fin 1) r)) + b (ix3 (0 : Fin 1) r j) * Ideal.cos (th0 (ix2 (0 : Fin 1) r))

/-- The tile's contribution to the real part at `(i, j)`. -/
def tileRe (th0 th1 : FVec Ideal S1x32768 .f32) (e f a b : FVec Ideal S1x32768x16 .f32) (i j : Fin 16) : EReal :=
  (∑ r : Fin 32768, e (ix3 (0 : Fin 1) r i) * ure th0 th1 a b r j) - (∑ r : Fin 32768, f (ix3 (0 : Fin 1) r i) * uim th0 th1 a b r j)

/-- The tile's contribution to the imaginary part at `(i, j)`. -/
def tileIm (th0 th1 : FVec Ideal S1x32768 .f32) (e f a b : FVec Ideal S1x32768x16 .f32) (i j : Fin 16) : EReal :=
  (∑ r : Fin 32768, e (ix3 (0 : Fin 1) r i) * uim th0 th1 a b r j) + (∑ r : Fin 32768, f (ix3 (0 : Fin 1) r i) * ure th0 th1 a b r j)

/-- The cosine of the first row of angles, at row `r`. -/
theorem cos_row_apply (v3 : FVec Ideal S1x32768 .f32) (r : Fin 32768) :
    k0_pay7 (F := Ideal) v3 (ix1 r) = Ideal.cos (v3 (ix2 (0 : Fin 1) r)) := by
  unfold k0_pay7
  exact congrArg Ideal.cos (shapeCast_1a_a_apply v3 shapeCasts_S1x32768_S32768 r)

/-- The sine of the second row of angles, at row `r`. -/
theorem sin_row_apply (v6 : FVec Ideal S1x32768 .f32) (r : Fin 32768) :
    k0_pay8 (F := Ideal) v6 (ix1 r) = Ideal.sin (v6 (ix2 (0 : Fin 1) r)) := by
  unfold k0_pay8
  exact congrArg Ideal.sin (shapeCast_1a_a_apply v6 shapeCasts_S1x32768_S32768 r)

/-- A column of 32768 values given a unit axis and spread over 16 columns reads, at `(r, j)`, the value of row `r`. -/
theorem spread_apply (x : FVec Ideal S32768 .f32) (r : Fin 32768) (j : Fin 16) :
    broadcastTo S32768x16 (shapeCast S32768x1 x shapeCasts_S32768_S32768x1) broadcasts_S32768x1_S32768x16 (ix2 r j) = x (ix1 r) :=
  (Cert.LibColumn.broadcastTo_a1_ab_apply _ broadcasts_S32768x1_S32768x16 r j).trans
    (Cert.LibColumn.shapeCast_a_a1_apply x shapeCasts_S32768_S32768x1 r (0 : Fin 1))

theorem ure_apply (v3 v6 : FVec Ideal S1x32768 .f32) (v13 v15 : FVec Ideal S1x32768x16 .f32) (r : Fin 32768) (j : Fin 16) :
    k0_pay13 (F := Ideal) v3 v6 v13 v15 (ix2 r j) = ure v3 v6 v13 v15 r j := by
  unfold k0_pay13 k0_pay11 k0_pay12 ure
  show shapeCast S32768x16 v13 shapeCasts_S1x32768x16_S32768x16 (ix2 r j) * broadcastTo S32768x16 (shapeCast S32768x1 (k0_pay7 (F := Ideal) v3) shapeCasts_S32768_S32768x1) broadcasts_S32768x1_S32768x16 (ix2 r j)
      - shapeCast S32768x16 v15 shapeCasts_S1x32768x16_S32768x16 (ix2 r j) * broadcastTo S32768x16 (shapeCast S32768x1 (k0_pay8 (F := Ideal) v6) shapeCasts_S32768_S32768x1) broadcasts_S32768x1_S32768x16 (ix2 r j) = _
  rw [spread_apply, spread_apply, cos_row_apply, sin_row_apply, shapeCast_1ab_ab_apply, shapeCast_1ab_ab_apply]

theorem uim_apply (v3 v6 : FVec Ideal S1x32768 .f32) (v13 v15 : FVec Ideal S1x32768x16 .f32) (r : Fin 32768) (j : Fin 16) :
    k0_pay14 (F := Ideal) v3 v6 v13 v15 (ix2 r j) = uim v3 v6 v13 v15 r j := by
  unfold k0_pay14 k0_pay11 k0_pay12 uim
  show shapeCast S32768x16 v13 shapeCasts_S1x32768x16_S32768x16 (ix2 r j) * broadcastTo S32768x16 (shapeCast S32768x1 (k0_pay8 (F := Ideal) v6) shapeCasts_S32768_S32768x1) broadcasts_S32768x1_S32768x16 (ix2 r j)
      + shapeCast S32768x16 v15 shapeCasts_S1x32768x16_S32768x16 (ix2 r j) * broadcastTo S32768x16 (shapeCast S32768x1 (k0_pay7 (F := Ideal) v3) shapeCasts_S32768_S32768x1) broadcasts_S32768x1_S32768x16 (ix2 r j) = _
  rw [spread_apply, spread_apply, cos_row_apply, sin_row_apply, shapeCast_1ab_ab_apply, shapeCast_1ab_ab_apply]

/-- The real accumulator's update: what it held plus the tile's real contribution. -/
theorem accRe_step (v3 v6 : FVec Ideal S1x32768 .f32) (v9 v11 v13 v15 : FVec Ideal S1x32768x16 .f32) (v31 : FVec Ideal S16x16 .f32) (i j : Fin 16) :
    k0_pay1 (F := Ideal) v31 (k0_pay15 (F := Ideal) v3 v6 v9 v11 v13 v15) (ix2 i j) = v31 (ix2 i j) + tileRe v3 v6 v9 v11 v13 v15 i j := by
  unfold k0_pay1 k0_pay15 k0_pay9 k0_pay10 tileRe
  rw [shapeCast_self]
  show v31 (ix2 i j) + (matmul dot_S32768x16_S32768x16_S16x16_0_0_1_1_n_n none _ _ (constant (F := Ideal) S16x16 .f32 0x00000000#32) (ix2 i j)
      - matmul dot_S32768x16_S32768x16_S16x16_0_0_1_1_n_n none _ _ (constant (F := Ideal) S16x16 .f32 0x00000000#32) (ix2 i j)) = _
  rw [matmul_rows_apply, matmul_rows_apply]
  refine congrArg (v31 (ix2 i j) + ·) (congrArg₂ (· - ·) (Finset.sum_congr rfl fun r _ => ?_) (Finset.sum_congr rfl fun r _ => ?_))
  · rw [shapeCast_1ab_ab_apply, ure_apply]
  · rw [shapeCast_1ab_ab_apply, uim_apply]

/-- The imaginary accumulator's update: what it held plus the tile's imaginary contribution. -/
theorem accIm_step (v3 v6 : FVec Ideal S1x32768 .f32) (v9 v11 v13 v15 : FVec Ideal S1x32768x16 .f32) (v39 : FVec Ideal S16x16 .f32) (i j : Fin 16) :
    k0_pay2 (F := Ideal) (k0_pay9 (F := Ideal) v9) (k0_pay10 (F := Ideal) v11) (k0_pay13 (F := Ideal) v3 v6 v13 v15) (k0_pay14 (F := Ideal) v3 v6 v13 v15) v39 (ix2 i j)
      = v39 (ix2 i j) + tileIm v3 v6 v9 v11 v13 v15 i j := by
  unfold k0_pay2 k0_pay9 k0_pay10 tileIm
  rw [shapeCast_self]
  show v39 (ix2 i j) + (matmul dot_S32768x16_S32768x16_S16x16_0_0_1_1_n_n none _ _ (constant (F := Ideal) S16x16 .f32 0x00000000#32) (ix2 i j)
      + matmul dot_S32768x16_S32768x16_S16x16_0_0_1_1_n_n none _ _ (constant (F := Ideal) S16x16 .f32 0x00000000#32) (ix2 i j)) = _
  rw [matmul_rows_apply, matmul_rows_apply]
  refine congrArg (v39 (ix2 i j) + ·) (congrArg₂ (· + ·) (Finset.sum_congr rfl fun r _ => ?_) (Finset.sum_congr rfl fun r _ => ?_))
  · rw [shapeCast_1ab_ab_apply, uim_apply]
  · rw [shapeCast_1ab_ab_apply, ure_apply]

/-- The block the reset stores into each accumulator is zero everywhere. -/
theorem zeroRe_apply (y : S16x16.Idx) : k0_pay5 (F := Ideal) y = 0 := by
  unfold k0_pay5
  rw [shapeCast_self]
  exact Ideal.ofBits_zero_f32

theorem zeroIm_apply (y : S16x16.Idx) : k0_pay6 (F := Ideal) y = 0 := by
  unfold k0_pay6
  rw [shapeCast_self]
  exact Ideal.ofBits_zero_f32

end Cert.KernelIdeal.Tile

end
-- ==== Proof.Accumulate.lean ====
/-
  The accumulators, point by point.

  The grid's 16 points run through the two halves in order, eight tiles each. At the first tile of a half both
  accumulators restart from zero; at every tile each adds its tile's contribution. So after point `n` an accumulator
  holds the sum of the contributions of the tiles `n - n % 8, …, n` of the current half, at every entry `(i, j)`. The
  sums are sums of extended reals in the order the kernel forms them; only commutativity-free facts are used here
  (`0 + x = x`, a sum over `{0, …, k}` is the sum over `{0, …, k - 1}` plus the last term).
-/
import proofs.«101659_j45552423141376_1_alg».proof.Proof.CaseValue
import proofs.«101659_j45552423141376_1_alg».proof.Proof.TileValue

noncomputable section

namespace Cert.KernelIdeal.Acc

open Idealize.ShloMosaic Idealize.ShloMosaic.TcCoe Idealize.ShloMosaic.ValueIdx Idealize.SL.Sem Cert.KernelIdeal Cert.KernelIdeal.Gen
open Cert.KernelIdeal.Cases Cert.KernelIdeal.Tile

variable (m : (ℓ : Loc nD τ sig) → Buf (Elt Ideal) ℓ)

/-- An update of the real accumulator, entry by entry: what it held plus the tile's real contribution. -/
theorem stepRe_apply (x0 x1 : Vec Ideal S2x32768x16 .f32) (x2 : Vec Ideal S2x32768 .f32) (acc : Vec Ideal S16x16 .f32) (i j : Fin 16) :
    stepRe (F := Ideal) x0 x1 x2 acc (ix2 i j)
      = acc (ix2 i j) + tileRe (View.ld x2 rowRect0) (View.ld x2 rowRect1) (View.ld x0 planeRect0) (View.ld x0 planeRect1)
          (View.ld x1 planeRect0) (View.ld x1 planeRect1) i j := by
  unfold stepRe
  exact accRe_step _ _ _ _ _ _ acc i j

/-- An update of the imaginary accumulator, entry by entry. -/
theorem stepIm_apply (x0 x1 : Vec Ideal S2x32768x16 .f32) (x2 : Vec Ideal S2x32768 .f32) (acc : Vec Ideal S16x16 .f32) (i j : Fin 16) :
    stepIm (F := Ideal) x0 x1 x2 acc (ix2 i j)
      = acc (ix2 i j) + tileIm (View.ld x2 rowRect0) (View.ld x2 rowRect1) (View.ld x0 planeRect0) (View.ld x0 planeRect1)
          (View.ld x1 planeRect0) (View.ld x1 planeRect1) i j := by
  unfold stepIm
  exact accIm_step _ _ _ _ _ _ acc i j

/-- The real contribution of the tile at grid point `t`, at `(i, j)`. -/
def tRe (c : Dev nD) (t : Fin cfg0.N) (i j : Fin 16) : EReal :=
  tileRe (View.ld (iblk m c 2 t) rowRect0) (View.ld (iblk m c 2 t) rowRect1) (View.ld (iblk m c 0 t) planeRect0) (View.ld (iblk m c 0 t) planeRect1) (View.ld (iblk m c 1 t) planeRect0) (View.ld (iblk m c 1 t) planeRect1) i j

/-- The imaginary contribution of the tile at grid point `t`, at `(i, j)`. -/
def tIm (c : Dev nD) (t : Fin cfg0.N) (i j : Fin 16) : EReal :=
  tileIm (View.ld (iblk m c 2 t) rowRect0) (View.ld (iblk m c 2 t) rowRect1) (View.ld (iblk m c 0 t) planeRect0) (View.ld (iblk m c 0 t) planeRect1) (View.ld (iblk m c 1 t) planeRect0) (View.ld (iblk m c 1 t) planeRect1) i j

/-- The same, indexed by a number (zero past the grid). -/
def tReN (c : Dev nD) (n : ℕ) (i j : Fin 16) : EReal := if h : n < cfg0.N then tRe m c ⟨n, h⟩ i j else 0
def tImN (c : Dev nD) (n : ℕ) (i j : Fin 16) : EReal := if h : n < cfg0.N then tIm m c ⟨n, h⟩ i j else 0

/-- At the first tile of a half the accumulators hold that tile's contribution alone. -/
theorem first_tile (c : Dev nD) (i j : Fin 16) (n : ℕ) (h : n < cfg0.N) (h0 : n % 8 = 0) :
    (outsAt0 (F := Ideal) m c n h).2.1 (ix2 i j) = tRe m c ⟨n, h⟩ i j
    ∧ (outsAt0 (F := Ideal) m c n h).2.2 (ix2 i j) = tIm m c ⟨n, h⟩ i j := by
  have h1 : ¬ n % 8 = 7 := by omega
  have e : outsAt0 (F := Ideal) m c n h = _ := outsAt0_A m c ⟨n, h⟩ h0 h1
  rw [e]
  dsimp only
  rw [accRe_first, accIm_first]
  refine ⟨(stepRe_apply (iblk m c 0 ⟨n, h⟩) (iblk m c 1 ⟨n, h⟩) (iblk m c 2 ⟨n, h⟩) (k0_pay5 (F := Ideal)) i j).trans ?_,
    (stepIm_apply (iblk m c 0 ⟨n, h⟩) (iblk m c 1 ⟨n, h⟩) (iblk m c 2 ⟨n, h⟩) (k0_pay6 (F := Ideal)) i j).trans ?_⟩
  · rw [zeroRe_apply, zero_add]; rfl
  · rw [zeroIm_apply, zero_add]; rfl

/-- At a later tile each accumulator adds the tile's contribution to what the point before left. -/
theorem later_tile (c : Dev nD) (i j : Fin 16) (n : ℕ) (h : n + 1 < cfg0.N) (h0 : ¬ (n + 1) % 8 = 0) :
    (outsAt0 (F := Ideal) m c (n + 1) h).2.1 (ix2 i j)
        = (outsAt0 (F := Ideal) m c n (Nat.lt_of_succ_lt h)).2.1 (ix2 i j) + tRe m c ⟨n + 1, h⟩ i j
    ∧ (outsAt0 (F := Ideal) m c (n + 1) h).2.2 (ix2 i j)
        = (outsAt0 (F := Ideal) m c n (Nat.lt_of_succ_lt h)).2.2 (ix2 i j) + tIm m c ⟨n + 1, h⟩ i j := by
  by_cases h1 : (n + 1) % 8 = 7
  · have e : outsAt0 (F := Ideal) m c (n + 1) h = _ := outsAt0_C m c ⟨n + 1, h⟩ h0 h1
    rw [e]
    dsimp only
    rw [accRe_last, accIm_last]
    exact ⟨stepRe_apply (iblk m c 0 ⟨n + 1, h⟩) (iblk m c 1 ⟨n + 1, h⟩) (iblk m c 2 ⟨n + 1, h⟩) _ i j,
      stepIm_apply (iblk m c 0 ⟨n + 1, h⟩) (iblk m c 1 ⟨n + 1, h⟩) (iblk m c 2 ⟨n + 1, h⟩) _ i j⟩
  · have e : outsAt0 (F := Ideal) m c (n + 1) h = _ := outsAt0_B m c ⟨n + 1, h⟩ h0 h1
    rw [e]
    dsimp only
    rw [accRe_mid, accIm_mid]
    exact ⟨stepRe_apply (iblk m c 0 ⟨n + 1, h⟩) (iblk m c 1 ⟨n + 1, h⟩) (iblk m c 2 ⟨n + 1, h⟩) _ i j,
      stepIm_apply (iblk m c 0 ⟨n + 1, h⟩) (iblk m c 1 ⟨n + 1, h⟩) (iblk m c 2 ⟨n + 1, h⟩) _ i j⟩

/-- After point `n` each accumulator holds the contributions of the tiles of its half up to `n`, summed. -/
theorem acc_closed (c : Dev nD) (i j : Fin 16) : ∀ (n : ℕ) (h : n < cfg0.N),
    (outsAt0 (F := Ideal) m c n h).2.1 (ix2 i j) = ∑ k ∈ Finset.range (n % 8 + 1), tReN m c (n - n % 8 + k) i j
    ∧ (outsAt0 (F := Ideal) m c n h).2.2 (ix2 i j) = ∑ k ∈ Finset.range (n % 8 + 1), tImN m c (n - n % 8 + k) i j := by
  intro n
  induction n with
  | zero =>
    intro h
    obtain ⟨a, b⟩ := first_tile m c i j 0 h rfl
    rw [a, b]
    simp [tReN, tImN, h]
  | succ n ih =>
    intro h
    by_cases h0 : (n + 1) % 8 = 0
    · obtain ⟨a, b⟩ := first_tile m c i j (n + 1) h h0
      rw [a, b, h0]
      simp [tReN, tImN, h]
    · obtain ⟨a, b⟩ := later_tile m c i j n h h0
      obtain ⟨ia, ib⟩ := ih (Nat.lt_of_succ_lt h)
      have e1 : (n + 1) % 8 = n % 8 + 1 := by omega
      have e2 : n + 1 - (n % 8 + 1) = n - n % 8 := by omega
      have e3 : n - n % 8 + (n % 8 + 1) = n + 1 := by omega
      rw [a, b, ia, ib, e1, e2, Finset.sum_range_succ _ (n % 8 + 1), Finset.sum_range_succ _ (n % 8 + 1), e3]
      simp only [tReN, tImN, dif_pos h, and_self]

/-- At the last tile of a half the output block's plane 0 is the real accumulator, plane 1 the imaginary one. -/
theorem out_last (c : Dev nD) (p q : Fin 16) (n : ℕ) (h : n < cfg0.N) (h1 : n % 8 = 7) :
    (outsAt0 (F := Ideal) m c n h).1 (ix4 (0 : Fin 1) (0 : Fin 2) p q) = (outsAt0 (F := Ideal) m c n h).2.1 (ix2 p q)
    ∧ (outsAt0 (F := Ideal) m c n h).1 (ix4 (0 : Fin 1) (1 : Fin 2) p q) = (outsAt0 (F := Ideal) m c n h).2.2 (ix2 p q) := by
  have h0 : ¬ n % 8 = 0 := by omega
  have e : outsAt0 (F := Ideal) m c n h = _ := outsAt0_C m c ⟨n, h⟩ h0 h1
  rw [e]
  dsimp only
  rw [out_last_re, out_last_im, accRe_last, accIm_last]
  exact ⟨rfl, rfl⟩

end Cert.KernelIdeal.Acc

end
-- ==== Proof.LibTiles.lean ====
/-
  A sum over the rows of a long array, taken tile by tile.

  The `a * b` rows of an array are the rows `t * b + r` of its `a` tiles of `b` rows each (`t < a`, `r < b`): the row
  number written in base `b`. A sum over all rows is therefore the sum over the tiles of the sums over each tile's rows.
  This is a re-indexing of a finite sum in a commutative monoid; it needs no law beyond commutativity and associativity
  of the sum, so it holds of the extended reals as it does of the reals.
-/
import Mathlib.Algebra.BigOperators.Fin
import Mathlib.Logic.Equiv.Fin.Basic

namespace Cert.SumSplit

/-- Row `r` of tile `t` is a row of the whole array. -/
theorem tile_lt {a b : ℕ} (t : Fin a) (r : Fin b) : t.val * b + r.val < a * b := by
  have h1 : t.val * b + r.val < t.val * b + b := Nat.add_lt_add_left r.isLt _
  have h2 : t.val * b + b = (t.val + 1) * b := (Nat.succ_mul t.val b).symm
  have h3 : (t.val + 1) * b ≤ a * b := Nat.mul_le_mul_right b t.isLt
  omega

/-- Row `r` of tile `t`, as a row of the array of `n = a * b` rows. -/
def row {a b n : ℕ} (h : a * b = n) (t : Fin a) (r : Fin b) : Fin n := ⟨t.val * b + r.val, h ▸ tile_lt t r⟩

@[simp] theorem row_val {a b n : ℕ} (h : a * b = n) (t : Fin a) (r : Fin b) : (row h t r).val = t.val * b + r.val := rfl

/-- A sum over `n = a * b` rows is the sum, over the `a` tiles, of the sums over the `b` rows of each. -/
theorem sum_tiles {M : Type*} [AddCommMonoid M] {a b n : ℕ} (h : a * b = n) (g : Fin n → M) :
    ∑ m, g m = ∑ t : Fin a, ∑ r : Fin b, g (row h t r) := by
  subst h
  rw [← (finProdFinEquiv (m := a) (n := b)).sum_comp g, Fintype.sum_prod_type]
  refine Finset.sum_congr rfl fun t _ => Finset.sum_congr rfl fun r _ => congrArg g (Fin.ext ?_)
  show r.val + b * t.val = t.val * b + r.val
  rw [Nat.mul_comm, Nat.add_comm]

end Cert.SumSplit
-- ==== Proof.BlockRead.lean ====
/-
  The blocks the pipeline hands the body, and the arrays it cuts them from, read off the arguments.

  The grid has 16 points, `t = 8 * half + step`; at point `t` each of the two operand windows holds rows
  `32768 * t … 32768 * t + 32767` of its `[2, 524288, 16]` array (both planes, all 16 columns), and the angle window the
  same rows of the `[2, 524288]` array. Those two operand arrays are the arguments with their unit axis dropped by a
  reshape (`gi[:, :, 0, :]`, `gj[:, 0, :, :]`), which moves no element: the same row-major position.
-/
import proofs.«101659_j45552423141376_1_alg».proof.Proof.Gen.KernelIdeal.Frame
import proofs.«101659_j45552423141376_1_alg».proof.Proof.LibTiles
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem Cert.KernelIdeal Cert.KernelIdeal.Gen
open Cert.SumSplit

variable {F : FTy → Type} [FloatOps F]
variable (m : (ℓ : Loc nD τ sig) → Buf (Elt F) ℓ)

/-- A grid point as one of the 16 tiles of the long axis. -/
def tile (t : Fin cfg0.N) : Fin 16 := ⟨t.val, lt_of_lt_of_eq t.isLt N_0⟩

/-- Row `r` of the tile at point `t`, as a row of the long axis: `32768 * t + r`. -/
abbrev rowAt (t : Fin cfg0.N) (r : Fin 32768) : Fin 524288 := row (a := 16) (b := 32768) rfl (tile t) r

/-! ## Where each window's block sits -/

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = 0 ∧ win0_2.index t 1 = t.val :=
  (by decide +kernel : ∀ t : Fin grid0.N, win0_2.index t 0 = 0 ∧ win0_2.index t 1 = t.val)

/-- The first operand's block at point `t`: plane `s`, row `r`, column `i` is the array at row `32768 * t + r`. -/
theorem blk0_apply (c : Dev nD) (t : Fin cfg0.N) (s : Fin 2) (r : Fin 32768) (i : Fin 16) :
    (iblk m c 0 t : Vec F S2x32768x16 .f32) (ix3 s r i)
      = (V m c main_v0 : S2x524288x16.Idx → Elt F .f32) (ix3 s (rowAt t r) i) := by
  obtain ⟨h0, h1, h2⟩ := index0 t
  unfold iblk
  rw [View.read_apply]
  show V m c main_v0 _ = V m c main_v0 _
  refine congrArg (V m c main_v0) (funext fun a => Fin.ext ?_)
  match a with
  | ⟨0, _⟩ => show win0_0.index t 0 * 2 + 1 * s.val = s.val; rw [h0]; omega
  | ⟨1, _⟩ => show win0_0.index t 1 * 32768 + 1 * r.val = t.val * 32768 + r.val; rw [h1]; omega
  | ⟨2, _⟩ => show win0_0.index t 2 * 16 + 1 * i.val = i.val; rw [h2]; omega

/-- The second operand's block at point `t`. -/
theorem blk1_apply (c : Dev nD) (t : Fin cfg0.N) (s : Fin 2) (r : Fin 32768) (j : Fin 16) :
    (iblk m c 1 t : Vec F S2x32768x16 .f32) (ix3 s r j)
      = (V m c main_v1 : S2x524288x16.Idx → Elt F .f32) (ix3 s (rowAt t r) j) := by
  obtain ⟨h0, h1, h2⟩ := index1 t
  unfold iblk
  rw [View.read_apply]
  show V m c main_v1 _ = V m c main_v1 _
  refine congrArg (V m c main_v1) (funext fun a => Fin.ext ?_)
  match a with
  | ⟨0, _⟩ => show win0_1.index t 0 * 2 + 1 * s.val = s.val; rw [h0]; omega
  | ⟨1, _⟩ => show win0_1.index t 1 * 32768 + 1 * r.val = t.val * 32768 + r.val; rw [h1]; omega
  | ⟨2, _⟩ => show win0_1.index t 2 * 16 + 1 * j.val = j.val; rw [h2]; omega

/-- The angles' block at point `t`. -/
theorem blk2_apply (c : Dev nD) (t : Fin cfg0.N) (s : Fin 2) (r : Fin 32768) :
    (iblk m c 2 t : Vec F S2x32768 .f32) (ix2 s r)
      = (V m c main_arg3 : S2x524288.Idx → Elt F .f32) (ix2 s (rowAt t r)) := by
  obtain ⟨h0, h1⟩ := index2 t
  unfold iblk
  rw [View.read_apply]
  show V m c main_arg3 _ = V m c main_arg3 _
  refine congrArg (V m c main_arg3) (funext fun a => Fin.ext ?_)
  match a with
  | ⟨0, _⟩ => show win0_2.index t 0 * 2 + 1 * s.val = s.val; rw [h0]; omega
  | ⟨1, _⟩ => show win0_2.index t 1 * 32768 + 1 * r.val = t.val * 32768 + r.val; rw [h1]; omega

/-! ## The arrays the region finds, off the arguments -/

theorem V_v0 (c : Dev nD) : (V m c main_v0 : S2x524288x16.Idx → Elt F .f32)
    = shapeCast S2x524288x16 (m ((c : Thread nD τ).loc main_arg1)) shapeCasts_S2x524288x1x16_S2x524288x16 := by
  show StableHlo.after hostOps0 (fun b => m (c, b)) (Proc.devRef .tc main_v0) = _
  after_results
  rfl

theorem V_v1 (c : Dev nD) : (V m c main_v1 : S2x524288x16.Idx → Elt F .f32)
    = shapeCast S2x524288x16 (m ((c : Thread nD τ).loc main_arg2)) shapeCasts_S2x1x524288x16_S2x524288x16 := by
  show StableHlo.after hostOps0 (fun b => m (c, b)) (Proc.devRef .tc main_v1) = _
  after_results
  rfl

theorem V_v2 (c : Dev nD) : (V m c main_v2 : S2x16x16.Idx → Elt F .f32)
    = shapeCast S2x16x16 (m ((c : Thread nD τ).loc main_arg0)) shapeCasts_S2x1x1x16x16_S2x16x16 := by
  show StableHlo.after hostOps0 (fun b => m (c, b)) (Proc.devRef .tc main_v2) = _
  after_results
  rfl

/-- `gi[:, :, 0, :]` at `(s, k, i)`. -/
theorem gi_apply (c : Dev nD) (s : Fin 2) (k : Fin 524288) (i : Fin 16) :
    (V m c main_v0 : S2x524288x16.Idx → Elt F .f32) (ix3 s k i)
      = (m ((c : Thread nD τ).loc main_arg1) : S2x524288x1x16.Idx → Elt F .f32) (ix4 s k (0 : Fin 1) i) :=
  (congrFun (V_v0 m c) _).trans (shapeCast_apply _ shapeCasts_S2x524288x1x16_S2x524288x16 _ _ (by
    rw [Shape.rowMajor_val_four, Shape.rowMajor_val_three]
    show ((s.val * 524288 + k.val) * 1 + 0) * 16 + i.val = (s.val * 524288 + k.val) * 16 + i.val
    omega))

/-- `gj[:, 0, :, :]` at `(s, k, j)`. -/
theorem gj_apply (c : Dev nD) (s : Fin 2) (k : Fin 524288) (j : Fin 16) :
    (V m c main_v1 : S2x524288x16.Idx → Elt F .f32) (ix3 s k j)
      = (m ((c : Thread nD τ).loc main_arg2) : S2x1x524288x16.Idx → Elt F .f32) (ix4 s (0 : Fin 1) k j) :=
  (congrFun (V_v1 m c) _).trans (shapeCast_apply _ shapeCasts_S2x1x524288x16_S2x524288x16 _ _ (by
    rw [Shape.rowMajor_val_four, Shape.rowMajor_val_three]
    show ((s.val * 1 + 0) * 524288 + k.val) * 16 + j.val = (s.val * 524288 + k.val) * 16 + j.val
    omega))

/-- `h[:, 0, 0, :, :]` at `(s, i, j)`. -/
theorem h_apply (c : Dev nD) (s : Fin 2) (i j : Fin 16) :
    (V m c main_v2 : S2x16x16.Idx → Elt F .f32) (ix3 s i j)
      = (m ((c : Thread nD τ).loc main_arg0) : S2x1x1x16x16.Idx → Elt F .f32) (ix5 s (0 : Fin 1) (0 : Fin 1) i j) :=
  (congrFun (V_v2 m c) _).trans (shapeCast_apply _ shapeCasts_S2x1x1x16x16_S2x16x16 _ _ (by
    rw [Shape.rowMajor_val_five, Shape.rowMajor_val_three]
    show (((s.val * 1 + 0) * 1 + 0) * 16 + i.val) * 16 + j.val = (s.val * 16 + i.val) * 16 + j.val
    omega))

end Cert.KernelIdeal.Blocks

end
-- ==== Proof.KernelResult.lean ====
/-
  The kernel's result array and the program's result.

  Only the last tile of each half writes its output block back: block `half` of the `[2, 2, 16, 16]` array, holding in
  plane 0 the real accumulator and in plane 1 the imaginary one, each the sum of the half's eight tile contributions.
  The two blocks cover the array. After the region the host adds the two halves (a sum over the leading axis from the
  constant zero) and adds `h` with its unit axes dropped.
-/
import proofs.«101659_j45552423141376_1_alg».proof.Proof.Accumulate
import proofs.«101659_j45552423141376_1_alg».proof.Proof.BlockRead
import Idealize.ShloMosaic.Lib.Pipeline.Value
import Idealize.ShloMosaic.Lib.StableHlo.Run
import Idealize.ShloMosaic.PureOps.Ideal.Laws

noncomputable section

namespace Cert.KernelIdeal.Result

open Idealize.ShloMosaic Idealize.ShloMosaic.TcCoe Idealize.ShloMosaic.ValueIdx Idealize.SL.Sem Cert.KernelIdeal Cert.KernelIdeal.Gen
open Cert.KernelIdeal.Acc
open Idealize.ShloMosaic.Pipeline (Dat)

variable (m : (ℓ : Loc nD τ sig) → Buf (Elt Ideal) ℓ) (ρ : Dev nD → PrngReg)

/-- A half's total at `(s, p, q)`: the eight tile contributions of the half, real (`s = 0`) or imaginary. -/
def halfSum (c : Dev nD) (half : ℕ) (s : Fin 2) (p q : Fin 16) : EReal :=
  if s.val = 0 then ∑ k ∈ Finset.range 8, tReN m c (8 * half + k) p q else ∑ k ∈ Finset.range 8, tImN m c (8 * half + k) p q

/-- What the kernel's output array ends holding. -/
def outArray (c : Dev nD) : S2x2x16x16.Idx → Elt Ideal .f32 := fun y =>
  halfSum m c (y 0).val ⟨(y 1).val, (y 1).isLt⟩ ⟨(y 2).val, (y 2).isLt⟩ ⟨(y 3).val, (y 3).isLt⟩

/-- The output block of point `t` is block `t / 8` along the leading axis, whole on the others. -/
theorem index3 : ∀ t : Fin cfg0.N, win0_3.index t 0 = t.val / 8 ∧ win0_3.index t 1 = 0 ∧ win0_3.index t 2 = 0 ∧ win0_3.index t 3 = 0 :=
  (by decide +kernel : ∀ t : Fin grid0.N, win0_3.index t 0 = t.val / 8 ∧ win0_3.index t 1 = 0 ∧ win0_3.index t 2 = 0 ∧ win0_3.index t 3 = 0)

/-- At the last tile of a half the output's staging buffer holds that half's totals. -/
theorem out_fun (c : Dev nD) (n : ℕ) (h : n < cfg0.N) (h7 : n % 8 = 7) (y : S1x2x16x16.Idx) :
    (outsAt0 (F := Ideal) m c n h).1 y = halfSum m c (n / 8) ⟨(y 1).val, (y 1).isLt⟩ ⟨(y 2).val, (y 2).isLt⟩ ⟨(y 3).val, (y 3).isLt⟩ := by
  obtain ⟨u, s, p, q, rfl⟩ : ∃ (u : Fin 1) (s : Fin 2) (p q : Fin 16), y = ix4 u s p q := ⟨y 0, y 1, y 2, y 3, eq_ix4 y⟩
  obtain rfl : u = 0 := Subsingleton.elim _ _
  obtain ⟨o0, o1⟩ := out_last m c p q n h h7
  obtain ⟨a0, a1⟩ := acc_closed m c p q n h
  have e8 : n - 7 = 8 * (n / 8) := by omega
  rw [h7, e8] at a0 a1
  show _ = halfSum m c (n / 8) s p q
  unfold halfSum
  match s with
  | ⟨0, _⟩ => rw [if_pos rfl]; exact o0.trans a0
  | ⟨1, _⟩ => rw [if_neg (by simp)]; exact o1.trans a1

/-- What a flushing point writes back is its block of `outArray`. -/
theorem flushed_eq (c : Dev nD) (t : Fin cfg0.N) (hf : (cfg0.win 3).flush t = true) :
    (dats m 0 c).flushed 3 t = ((cfg0.win 3).blk t).view.read (Elt Ideal) (outArray m c) := by
  have h7 : t.val % 8 = 7 := (flush0_3 t).mp hf
  obtain ⟨i0, i1, i2, i3⟩ := index3 t
  show (cfg0.win 3).cut (grid0.coords t) ((dats m 0 c).after 3 t) = _
  rw [after0_3]
  funext y
  rw [View.read_apply]
  show (outsAt0 (F := Ideal) m c t.val t.isLt).1 y = outArray m c (((cfg0.win 3).blk t).view.emb y)
  rw [out_fun m c t.val t.isLt h7]
  have hy0 : (y 0).val < 1 := (y 0).isLt
  have e0 : ((((cfg0.win 3).blk t).view.emb y) 0).val = t.val / 8 := by
    show win0_3.index t 0 * 1 + 1 * (y 0).val = t.val / 8; rw [i0]; omega
  have e1 : ((((cfg0.win 3).blk t).view.emb y) 1).val = (y 1).val := by
    show win0_3.index t 1 * 2 + 1 * (y 1).val = (y 1).val; rw [i1]; omega
  have e2 : ((((cfg0.win 3).blk t).view.emb y) 2).val = (y 2).val := by
    show win0_3.index t 2 * 16 + 1 * (y 2).val = (y 2).val; rw [i2]; omega
  have e3 : ((((cfg0.win 3).blk t).view.emb y) 3).val = (y 3).val := by
    show win0_3.index t 3 * 16 + 1 * (y 3).val = (y 3).val; rw [i3]; omega
  unfold outArray
  exact congr (congr (congr (congrArg (halfSum m c) e0.symm) (Fin.ext e1.symm)) (Fin.ext e2.symm)) (Fin.ext e3.symm)

/-- An index of the output array is in point `t`'s block iff each coordinate is in the block's range on its axis. -/
theorem mem_blk (t : Fin cfg0.N) (i : S2x2x16x16.Idx) :
    i ∈ ((cfg0.win 3).blk t).view.set ↔ ∀ a : Fin 4, win0_3.index t a * S1x2x16x16.size a ≤ (i a).val
      ∧ (i a).val < win0_3.index t a * S1x2x16x16.size a + S1x2x16x16.size a := by
  show i ∈ ((View.whole main_v3).slice (win0_3.rect t)).set ↔ _
  rw [View.set_slice_whole, Rect.mem_set_unit]
  exact Iff.rfl

/-- Every index of the output array lies in the block written back at the last tile of its half. -/
theorem cover (i : S2x2x16x16.Idx) :
    ∃ t : Fin cfg0.N, (cfg0.win 3).flush t = true ∧ i ∈ ((cfg0.win 3).blk t).view.set := by
  have hi0 : (i 0).val < 2 := (i 0).isLt
  have hi1 : (i 1).val < 2 := (i 1).isLt
  have hi2 : (i 2).val < 16 := (i 2).isLt
  have hi3 : (i 3).val < 16 := (i 3).isLt
  have hN : grid0.N = 16 := N_0
  have hlt : 8 * (i 0).val + 7 < cfg0.N := by show 8 * (i 0).val + 7 < grid0.N; omega
  obtain ⟨j0, j1, j2, j3⟩ := index3 ⟨8 * (i 0).val + 7, hlt⟩
  have j0' : win0_3.index ⟨8 * (i 0).val + 7, hlt⟩ 0 = (8 * (i 0).val + 7) / 8 := j0
  refine ⟨⟨8 * (i 0).val + 7, hlt⟩, (flush0_3 _).mpr (by show (8 * (i 0).val + 7) % 8 = 7; omega), ?_⟩
  rw [mem_blk]
  intro a
  match a with
  | ⟨0, _⟩ =>
    show win0_3.index ⟨8 * (i 0).val + 7, hlt⟩ 0 * 1 ≤ (i 0).val ∧ (i 0).val < win0_3.index ⟨8 * (i 0).val + 7, hlt⟩ 0 * 1 + 1
    rw [j0']; omega
  | ⟨1, _⟩ =>
    show win0_3.index ⟨8 * (i 0).val + 7, hlt⟩ 1 * 2 ≤ (i 1).val ∧ (i 1).val < win0_3.index ⟨8 * (i 0).val + 7, hlt⟩ 1 * 2 + 2
    rw [j1]; omega
  | ⟨2, _⟩ =>
    show win0_3.index ⟨8 * (i 0).val + 7, hlt⟩ 2 * 16 ≤ (i 2).val ∧ (i 2).val < win0_3.index ⟨8 * (i 0).val + 7, hlt⟩ 2 * 16 + 16
    rw [j2]; omega
  | ⟨3, _⟩ =>
    show win0_3.index ⟨8 * (i 0).val + 7, hlt⟩ 3 * 16 ≤ (i 3).val ∧ (i 3).val < win0_3.index ⟨8 * (i 0).val + 7, hlt⟩ 3 * 16 + 16
    rw [j3]; omega

/-- The output array after the run. -/
theorem final (c : Dev nD) : (dats m 0 c).arrAt 3 cfg0.N = outArray m c :=
  (dats m 0 c).arrAt_eq_of_cover 3 (outArray m c) (flushed_eq m c) cover

/-! ## The host's tail, and the run -/

/-- The program's result: `h` with its unit axes dropped, plus the two halves of the kernel's output added up. -/
def result (c : Dev nD) : S2x16x16.Idx → Elt Ideal .f32 :=
  addf (V m c main_v2 : S2x16x16.Idx → Elt Ideal .f32)
    (Host.reduceAdd (F := Ideal) (outArray m c) (constant (F := Ideal) S_ .f32 0x00000000#32) reducesTo_S2x2x16x16_S2x16x16_d0 h_S_)

/-- The lines after the region compute it from the kernel's output array. -/
theorem tail_eq (c : Dev nD) : Pipeline.afterTail₀ cfgs (dats (F := Ideal) m) 0 (V0 m) [hostOps1] c main_v5 = result m c := by
  unfold Pipeline.afterTail₀
  show StableHlo.after hostOps1 _ (Proc.devRef .tc main_v5) = _
  after_results
  have e3 : Pipeline.withArrays (cfgs 0).spec c (V0 m c) (fun w => (dats m 0 c).arrAt w (cfgs 0).N) (Proc.devRef .tc main_v3)
      = outArray m c := (Pipeline.withArrays_arr spec0 launch0.win.arr_inj c _ _ 3).trans (final m c)
  have e2 : Pipeline.withArrays (cfgs 0).spec c (V0 m c) (fun w => (dats m 0 c).arrAt w (cfgs 0).N) (Proc.devRef .tc main_v2)
      = V m c main_v2 := Pipeline.withArrays_of_ne _ c (V0 m c) _ main_v2 (by exact (by decide : ∀ w, Pipeline.arrRef spec0 w ≠ main_v2))
  rw [e3, e2]
  rfl

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

/-! ## The result, entry by entry -/

/-- The source index over `(s, i, j)` with leading coordinate `k`. -/
theorem lift_eq (hR : S2x2x16x16.Reduces [0] S2x16x16) (s : Fin 2) (i j : Fin 16) (k : Fin 2) :
    hR.lift (ix3 s i j) k = ix4 k s i j :=
  funext fun a => Fin.ext (by
    match a with
    | ⟨0, _⟩ => rfl
    | ⟨1, _⟩ => rfl
    | ⟨2, _⟩ => rfl
    | ⟨3, _⟩ => rfl)

/-- `h[:, 0, 0, :, :]` at `(s, i, j)`, as the region finds it. -/
def hEntry (c : Dev nD) (s : Fin 2) (i j : Fin 16) : EReal := (V m c main_v2 : S2x16x16.Idx → Elt Ideal .f32) (ix3 s i j)

/-- At `(s, i, j)` the result is `h`'s entry plus, from zero, the two halves' totals. -/
theorem result_apply (c : Dev nD) (s : Fin 2) (i j : Fin 16) :
    result m c (ix3 s i j) = hEntry m c s i j + (0 + (halfSum m c 0 s i j + halfSum m c 1 s i j)) := by
  have hR : S2x2x16x16.Reduces [0] S2x16x16 := by decide
  show hEntry m c s i j
      + Ideal.hostReduceAdd reducesTo_S2x2x16x16_S2x16x16_d0 (outArray m c) (Ideal.ofBits .f32 0x00000000#32) (ix3 s i j) = _
  refine congrArg (hEntry m c s i j + ·) ?_
  refine (Ideal.hostReduceAdd_single reducesTo_S2x2x16x16_S2x16x16_d0 hR (outArray m c) _ (ix3 s i j)).trans ?_
  rw [Ideal.ofBits_zero_f32]
  refine congrArg (0 + ·) ?_
  refine (Fin.sum_univ_two (fun k : Fin 2 => outArray m c (hR.lift (ix3 s i j) k))).trans ?_
  rw [lift_eq hR s i j 0, lift_eq hR s i j 1]
  rfl

end Cert.KernelIdeal.Result

end
-- ==== Proof.LibRealOps.lean ====
/-
  More operations under which the real numbers among the extended reals are closed: negation, the exponential, the
  cosine; the pattern of `2.0`; and the inclusion of the real numbers commuting with finite sums (what lets a law of
  finite real sums be carried to extended reals that are real numbers).
-/
import Idealize.ShloMosaic.PureOps.Ideal
import proofs.«101659_j45552423141376_1_alg».proof.Proof.LibReal

noncomputable section

namespace Cert.LibRealOps

open Idealize.ShloMosaic Cert.LibReal

/-- The pattern of `2.0` denotes the real number 2. -/
theorem two_eq : Ideal.ofBits .f32 0x40000000#32 = ((2 : ℝ) : EReal) := by
  simp [Ideal.ofBits, Ideal.ieee, -EReal.coe_mul]; norm_num

theorem isR_two : IsR (Ideal.ofBits .f32 0x40000000#32) := ⟨2, two_eq⟩

/-- The negative of a real number is a real number. -/
theorem isR_neg {a : EReal} (ha : IsR a) : IsR (-a) := by
  obtain ⟨r, rfl⟩ := ha; exact ⟨-r, (EReal.coe_neg r).symm⟩

/-- The exponential of a real number is a real number. -/
theorem isR_exp {a : EReal} (ha : IsR a) : IsR (Ideal.exp a) := by
  obtain ⟨r, rfl⟩ := ha; exact ⟨Real.exp r, rfl⟩

/-- The cosine of a real number is a real number. -/
theorem isR_cos {a : EReal} (ha : IsR a) : IsR (Ideal.cos a) := by
  obtain ⟨r, rfl⟩ := ha; exact ⟨Real.cos r, rfl⟩

/-- The inclusion of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibRealOps

end
-- ==== Proof.SpecTerms.lean ====
/-
  The terms both programs sum, stated over the four argument arrays alone.

  With `e = gi[0, :, 0, :]`, `f = gi[1, :, 0, :]` (each `[M, 16]`), `a = gj[0, 0]`, `b = gj[1, 0]`, `M = 524288`, and the
  rotation of row `k` by the angles `θ₀ k`, `θ₁ k`,
      u_re (k, j) = a (k, j) * cos θ₀ k - b (k, j) * sin θ₁ k,      u_im (k, j) = a (k, j) * sin θ₁ k + b (k, j) * cos θ₀ k,
  the result's real part at `(i, j)` is `h₀ (i, j) + (∑ k, e (k, i) * u_re (k, j) - ∑ k, f (k, i) * u_im (k, j))` and its
  imaginary part `h₁ (i, j) + (∑ k, e (k, i) * u_im (k, j) + ∑ k, f (k, i) * u_re (k, j))`. The four summands are named here,
  as functions of the row `k`.
-/
import Idealize.ShloMosaic.PureOps.Ideal
import Idealize.ShloMosaic.Lib.ValueIdx
import proofs.«101659_j45552423141376_1_alg».proof.Proof.LibReal
import proofs.«101659_j45552423141376_1_alg».proof.Proof.LibRealOps

noncomputable section

namespace Cert.Spec

open Idealize.ShloMosaic Idealize.ShloMosaic.ValueIdx Cert.LibReal

abbrev GI : Type := (⟨4, ![2, 524288, 1, 16]⟩ : Shape).Idx → EReal
abbrev GJ : Type := (⟨4, ![2, 1, 524288, 16]⟩ : Shape).Idx → EReal
abbrev TH : Type := (⟨2, ![2, 524288]⟩ : Shape).Idx → EReal

/-- `u_re` at row `k`, column `j`. -/
def uRe (gj : GJ) (th : TH) (k : Fin 524288) (j : Fin 16) : EReal :=
  gj (ix4 (0 : Fin 2) (0 : Fin 1) k j) * Ideal.cos (th (ix2 (0 : Fin 2) k))
    - gj (ix4 (1 : Fin 2) (0 : Fin 1) k j) * Ideal.sin (th (ix2 (1 : Fin 2) k))

/-- `u_im` at row `k`, column `j`. -/
def uIm (gj : GJ) (th : TH) (k : Fin 524288) (j : Fin 16) : EReal :=
  gj (ix4 (0 : Fin 2) (0 : Fin 1) k j) * Ideal.sin (th (ix2 (1 : Fin 2) k))
    + gj (ix4 (1 : Fin 2) (0 : Fin 1) k j) * Ideal.cos (th (ix2 (0 : Fin 2) k))

/-- The four summands at `(i, j)`, as functions of the row. -/
def eURe (gi : GI) (gj : GJ) (th : TH) (i j : Fin 16) (k : Fin 524288) : EReal := gi (ix4 (0 : Fin 2) k (0 : Fin 1) i) * uRe gj th k j
def fUIm (gi : GI) (gj : GJ) (th : TH) (i j : Fin 16) (k : Fin 524288) : EReal := gi (ix4 (1 : Fin 2) k (0 : Fin 1) i) * uIm gj th k j
def eUIm (gi : GI) (gj : GJ) (th : TH) (i j : Fin 16) (k : Fin 524288) : EReal := gi (ix4 (0 : Fin 2) k (0 : Fin 1) i) * uIm gj th k j
def fURe (gi : GI) (gj : GJ) (th : TH) (i j : Fin 16) (k : Fin 524288) : EReal := gi (ix4 (1 : Fin 2) k (0 : Fin 1) i) * uRe gj th k j

/-- The sine of a real number is a real number. -/
theorem isR_sin {a : EReal} (ha : IsR a) : IsR (Ideal.sin a) := by
  obtain ⟨r, rfl⟩ := ha; exact ⟨Real.sin r, rfl⟩

/-- Where the arguments hold real numbers, so do the summands. -/
theorem isR_uRe {gj : GJ} {th : TH} (hj : ∀ y, IsR (gj y)) (ht : ∀ y, IsR (th y)) (k : Fin 524288) (j : Fin 16) : IsR (uRe gj th k j) :=
  ((hj _).mul (Cert.LibRealOps.isR_cos (ht _))).sub ((hj _).mul (isR_sin (ht _)))

theorem isR_uIm {gj : GJ} {th : TH} (hj : ∀ y, IsR (gj y)) (ht : ∀ y, IsR (th y)) (k : Fin 524288) (j : Fin 16) : IsR (uIm gj th k j) :=
  ((hj _).mul (isR_sin (ht _))).add ((hj _).mul (Cert.LibRealOps.isR_cos (ht _)))

theorem isR_eURe {gi : GI} {gj : GJ} {th : TH} (hi : ∀ y, IsR (gi y)) (hj : ∀ y, IsR (gj y)) (ht : ∀ y, IsR (th y)) (i j : Fin 16)
    (k : Fin 524288) : IsR (eURe gi gj th i j k) := (hi _).mul (isR_uRe hj ht k j)

theorem isR_fUIm {gi : GI} {gj : GJ} {th : TH} (hi : ∀ y, IsR (gi y)) (hj : ∀ y, IsR (gj y)) (ht : ∀ y, IsR (th y)) (i j : Fin 16)
    (k : Fin 524288) : IsR (fUIm gi gj th i j k) := (hi _).mul (isR_uIm hj ht k j)

end Cert.Spec

end
-- ==== Proof.TileArgs.lean ====
/-
  A tile's contribution, in terms of the argument arrays.

  The operands the body loads are planes and rows of the window blocks, and the window blocks are rows
  `32768 * t + r` of the arguments (with the unit axes of `gi` and `gj` dropped). So the tile's real contribution at
  `(i, j)` is `∑ r, e·u_re - ∑ r, f·u_im` over the tile's rows of the argument arrays, and the imaginary one
  `∑ r, e·u_im + ∑ r, f·u_re`.
-/
import proofs.«101659_j45552423141376_1_alg».proof.Proof.Accumulate
import proofs.«101659_j45552423141376_1_alg».proof.Proof.BlockRead
import proofs.«101659_j45552423141376_1_alg».proof.Proof.SpecTerms

noncomputable section

namespace Cert.KernelIdeal.TileArgs

open Idealize.ShloMosaic Idealize.ShloMosaic.TcCoe Idealize.ShloMosaic.ValueIdx Idealize.SL.Sem Cert.KernelIdeal Cert.KernelIdeal.Gen
open Cert.KernelIdeal.Cases Cert.KernelIdeal.Tile Cert.KernelIdeal.Acc Cert.KernelIdeal.Blocks Cert.Spec

/-! ## A plane of an operand block, a row of the angle block -/

theorem ld_plane0 (X : Vec Ideal S2x32768x16 .f32) (r : Fin 32768) (i : Fin 16) :
    View.ld X planeRect0 (ix3 (0 : Fin 1) r i) = X (ix3 (0 : Fin 2) r i) :=
  congrArg X (funext fun a => Fin.ext (by
    match a with
    | ⟨0, _⟩ => rfl
    | ⟨1, _⟩ => show 0 + 1 * r.val = r.val; omega
    | ⟨2, _⟩ => show 0 + 1 * i.val = i.val; omega))

theorem ld_plane1 (X : Vec Ideal S2x32768x16 .f32) (r : Fin 32768) (i : Fin 16) :
    View.ld X planeRect1 (ix3 (0 : Fin 1) r i) = X (ix3 (1 : Fin 2) r i) :=
  congrArg X (funext fun a => Fin.ext (by
    match a with
    | ⟨0, _⟩ => rfl
    | ⟨1, _⟩ => show 0 + 1 * r.val = r.val; omega
    | ⟨2, _⟩ => show 0 + 1 * i.val = i.val; omega))

theorem ld_row0 (X : Vec Ideal S2x32768 .f32) (r : Fin 32768) :
    View.ld X rowRect0 (ix2 (0 : Fin 1) r) = X (ix2 (0 : Fin 2) r) :=
  congrArg X (funext fun a => Fin.ext (by
    match a with
    | ⟨0, _⟩ => rfl
    | ⟨1, _⟩ => show 0 + 1 * r.val = r.val; omega))

theorem ld_row1 (X : Vec Ideal S2x32768 .f32) (r : Fin 32768) :
    View.ld X rowRect1 (ix2 (0 : Fin 1) r) = X (ix2 (1 : Fin 2) r) :=
  congrArg X (funext fun a => Fin.ext (by
    match a with
    | ⟨0, _⟩ => rfl
    | ⟨1, _⟩ => show 0 + 1 * r.val = r.val; omega))

/-! ## Over any blocks that are rows of the arguments -/

section
variable (X0 X1 : Vec Ideal S2x32768x16 .f32) (X2 : Vec Ideal S2x32768 .f32) (gi : GI) (gj : GJ) (th : TH)
  (row : Fin 32768 → Fin 524288)
  (h0 : ∀ (s : Fin 2) (r : Fin 32768) (i : Fin 16), X0 (ix3 s r i) = gi (ix4 s (row r) (0 : Fin 1) i))
  (h1 : ∀ (s : Fin 2) (r : Fin 32768) (j : Fin 16), X1 (ix3 s r j) = gj (ix4 s (0 : Fin 1) (row r) j))
  (h2 : ∀ (s : Fin 2) (r : Fin 32768), X2 (ix2 s r) = th (ix2 s (row r)))
include h1 h2

theorem ure_of_blocks (r : Fin 32768) (j : Fin 16) :
    ure (View.ld X2 rowRect0) (View.ld X2 rowRect1) (View.ld X1 planeRect0) (View.ld X1 planeRect1) r j = uRe gj th (row r) j := by
  unfold ure uRe
  rw [ld_plane0 X1 r j, ld_plane1 X1 r j, ld_row0 X2 r, ld_row1 X2 r, h1 0 r j, h1 1 r j, h2 0 r, h2 1 r]

theorem uim_of_blocks (r : Fin 32768) (j : Fin 16) :
    uim (View.ld X2 rowRect0) (View.ld X2 rowRect1) (View.ld X1 planeRect0) (View.ld X1 planeRect1) r j = uIm gj th (row r) j := by
  unfold uim uIm
  rw [ld_plane0 X1 r j, ld_plane1 X1 r j, ld_row0 X2 r, ld_row1 X2 r, h1 0 r j, h1 1 r j, h2 0 r, h2 1 r]

include h0

theorem tileRe_of_blocks (i j : Fin 16) :
    tileRe (View.ld X2 rowRect0) (View.ld X2 rowRect1) (View.ld X0 planeRect0) (View.ld X0 planeRect1)
        (View.ld X1 planeRect0) (View.ld X1 planeRect1) i j
      = (∑ r : Fin 32768, eURe gi gj th i j (row r)) - ∑ r : Fin 32768, fUIm gi gj th i j (row r) := by
  unfold tileRe eURe fUIm
  refine congrArg₂ (· - ·) (Finset.sum_congr rfl fun r _ => ?_) (Finset.sum_congr rfl fun r _ => ?_)
  · rw [ld_plane0 X0 r i, h0 0 r i, ure_of_blocks X1 X2 gj th row h1 h2 r j]
  · rw [ld_plane1 X0 r i, h0 1 r i, uim_of_blocks X1 X2 gj th row h1 h2 r j]

theorem tileIm_of_blocks (i j : Fin 16) :
    tileIm (View.ld X2 rowRect0) (View.ld X2 rowRect1) (View.ld X0 planeRect0) (View.ld X0 planeRect1)
        (View.ld X1 planeRect0) (View.ld X1 planeRect1) i j
      = (∑ r : Fin 32768, eUIm gi gj th i j (row r)) + ∑ r : Fin 32768, fURe gi gj th i j (row r) := by
  unfold tileIm eUIm fURe
  refine congrArg₂ (· + ·) (Finset.sum_congr rfl fun r _ => ?_) (Finset.sum_congr rfl fun r _ => ?_)
  · rw [ld_plane0 X0 r i, h0 0 r i, uim_of_blocks X1 X2 gj th row h1 h2 r j]
  · rw [ld_plane1 X0 r i, h0 1 r i, ure_of_blocks X1 X2 gj th row h1 h2 r j]

end

/-! ## At the window blocks of a grid point -/

variable (m : (ℓ : Loc nD τ sig) → Buf (Elt Ideal) ℓ)

/-- The arguments `gi`, `gj`, `theta` as arrays of extended reals. -/
abbrev giOf (c : Dev nD) : GI := m ((c : Thread nD τ).loc main_arg1)
abbrev gjOf (c : Dev nD) : GJ := m ((c : Thread nD τ).loc main_arg2)
abbrev thOf (c : Dev nD) : TH := m ((c : Thread nD τ).loc main_arg3)

theorem tRe_args (c : Dev nD) (t : Fin cfg0.N) (i j : Fin 16) :
    tRe m c t i j = (∑ r : Fin 32768, eURe (giOf m c) (gjOf m c) (thOf m c) i j (rowAt t r))
      - ∑ r : Fin 32768, fUIm (giOf m c) (gjOf m c) (thOf m c) i j (rowAt t r) :=
  tileRe_of_blocks (iblk m c 0 t) (iblk m c 1 t) (iblk m c 2 t) (giOf m c) (gjOf m c) (thOf m c) (rowAt t)
    (fun s r i => (blk0_apply m c t s r i).trans (gi_apply m c s (rowAt t r) i))
    (fun s r j => (blk1_apply m c t s r j).trans (gj_apply m c s (rowAt t r) j))
    (fun s r => (blk2_apply m c t s r).trans (congrFun (V_main_arg3 m c) _)) i j

theorem tIm_args (c : Dev nD) (t : Fin cfg0.N) (i j : Fin 16) :
    tIm m c t i j = (∑ r : Fin 32768, eUIm (giOf m c) (gjOf m c) (thOf m c) i j (rowAt t r))
      + ∑ r : Fin 32768, fURe (giOf m c) (gjOf m c) (thOf m c) i j (rowAt t r) :=
  tileIm_of_blocks (iblk m c 0 t) (iblk m c 1 t) (iblk m c 2 t) (giOf m c) (gjOf m c) (thOf m c) (rowAt t)
    (fun s r i => (blk0_apply m c t s r i).trans (gi_apply m c s (rowAt t r) i))
    (fun s r j => (blk1_apply m c t s r j).trans (gj_apply m c s (rowAt t r) j))
    (fun s r => (blk2_apply m c t s r).trans (congrFun (V_main_arg3 m c) _)) i j

end Cert.KernelIdeal.TileArgs

end
-- ==== Proof.RefValue.lean ====
/-
  The reference, read entry by entry.

  The reference slices the two planes of each operand and the two rows of angles out of the arguments, reshapes them to
  `[M, 16]` and `[M]`, takes the cosine of the first row and the sine of the second, spreads them over the 16 columns,
  forms `u_re`, `u_im`, contracts over all `M = 524288` rows at once (four products contracting the first axis of both
  operands), stacks the two `[16, 16]` results along a new leading axis and adds `h` with its unit axes dropped. Read at
  `(s, i, j)` this is `h (s, 0, 0, i, j)` plus, for `s = 0`, `∑ k, e·u_re - ∑ k, f·u_im`, and for `s = 1`,
  `∑ k, e·u_im + ∑ k, f·u_re`.
-/
import proofs.«101659_j45552423141376_1_alg».proof.Proof.Gen.ReferenceIdeal.Read
import proofs.«101659_j45552423141376_1_alg».proof.Proof.SpecTerms
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

variable (x0 : (⟨S2x1x1x16x16, .f32⟩ : BufTy).Contents (Elt Ideal)) (x1 : (⟨S2x524288x1x16, .f32⟩ : BufTy).Contents (Elt Ideal)) (x2 : (⟨S2x1x524288x16, .f32⟩ : BufTy).Contents (Elt Ideal)) (x3 : (⟨S2x524288, .f32⟩ : BufTy).Contents (Elt Ideal))

/-! ## The angles -/

theorem cos_at (k : Fin 524288) : val_main_v2 (F := Ideal) x3 (ix1 k) = Ideal.cos (x3 (ix2 (0 : Fin 2) k)) := by
  rw [val_main_v2_apply, val_main_v1_apply, val_main_v0_apply]
  refine congrArg (fun i => Ideal.cos (x3 i)) (funext fun a => Fin.ext ?_)
  match a with
  | ⟨0, _⟩ => rfl
  | ⟨1, _⟩ => exact Nat.mod_eq_of_lt k.isLt

theorem sin_at (k : Fin 524288) : val_main_v5 (F := Ideal) x3 (ix1 k) = Ideal.sin (x3 (ix2 (1 : Fin 2) k)) := by
  rw [val_main_v5_apply, val_main_v4_apply, val_main_v3_apply]
  refine congrArg (fun i => Ideal.sin (x3 i)) (funext fun a => Fin.ext ?_)
  match a with
  | ⟨0, _⟩ => rfl
  | ⟨1, _⟩ => exact Nat.mod_eq_of_lt k.isLt

/-- A value per row, given a unit axis and spread over the 16 columns, is that row's value. -/
theorem colidx (k : Fin 524288) (j : Fin 16) : idx_main_v14 (idx_main_v15 (ix2 k j)) = ix1 k :=
  funext fun a => Fin.ext (by match a with | ⟨0, _⟩ => rfl)

theorem cos15_at (k : Fin 524288) (j : Fin 16) : val_main_v15 (F := Ideal) x3 (ix2 k j) = Ideal.cos (x3 (ix2 (0 : Fin 2) k)) := by
  rw [val_main_v15_apply, val_main_v14_apply]
  exact (congrArg (val_main_v2 (F := Ideal) x3) (colidx k j)).trans (cos_at x3 k)

theorem sin18_at (k : Fin 524288) (j : Fin 16) : val_main_v18 (F := Ideal) x3 (ix2 k j) = Ideal.sin (x3 (ix2 (1 : Fin 2) k)) := by
  rw [val_main_v18_apply, val_main_v17_apply]
  exact (congrArg (val_main_v5 (F := Ideal) x3) (colidx k j)).trans (sin_at x3 k)

theorem sin22_at (k : Fin 524288) (j : Fin 16) : val_main_v22 (F := Ideal) x3 (ix2 k j) = Ideal.sin (x3 (ix2 (1 : Fin 2) k)) := by
  rw [val_main_v22_apply, val_main_v21_apply]
  exact (congrArg (val_main_v5 (F := Ideal) x3) (colidx k j)).trans (sin_at x3 k)

theorem cos25_at (k : Fin 524288) (j : Fin 16) : val_main_v25 (F := Ideal) x3 (ix2 k j) = Ideal.cos (x3 (ix2 (0 : Fin 2) k)) := by
  rw [val_main_v25_apply, val_main_v24_apply]
  exact (congrArg (val_main_v2 (F := Ideal) x3) (colidx k j)).trans (cos_at x3 k)

/-! ## The operands' planes -/

theorem a_at (k : Fin 524288) (j : Fin 16) : val_main_v7 (F := Ideal) x2 (ix2 k j) = x2 (ix4 (0 : Fin 2) (0 : Fin 1) k j) := by
  rw [val_main_v7_apply, val_main_v6_apply]
  exact congrArg x2 (funext fun a => Fin.ext (by
    have hk := k.isLt
    have hj := j.isLt
    match a with
    | ⟨0, _⟩ => rfl
    | ⟨1, _⟩ => rfl
    | ⟨2, _⟩ => show (k.val * 16 + j.val) / 16 % 524288 = k.val; omega
    | ⟨3, _⟩ => show (k.val * 16 + j.val) % 16 = j.val; omega))

theorem b_at (k : Fin 524288) (j : Fin 16) : val_main_v9 (F := Ideal) x2 (ix2 k j) = x2 (ix4 (1 : Fin 2) (0 : Fin 1) k j) := by
  rw [val_main_v9_apply, val_main_v8_apply]
  exact congrArg x2 (funext fun a => Fin.ext (by
    have hk := k.isLt
    have hj := j.isLt
    match a with
    | ⟨0, _⟩ => rfl
    | ⟨1, _⟩ => rfl
    | ⟨2, _⟩ => show (k.val * 16 + j.val) / 16 % 524288 = k.val; omega
    | ⟨3, _⟩ => show (k.val * 16 + j.val) % 16 = j.val; omega))

theorem e_at (k : Fin 524288) (i : Fin 16) : val_main_v11 (F := Ideal) x1 (ix2 k i) = x1 (ix4 (0 : Fin 2) k (0 : Fin 1) i) := by
  rw [val_main_v11_apply, val_main_v10_apply]
  exact congrArg x1 (funext fun a => Fin.ext (by
    have hk := k.isLt
    have hj := i.isLt
    match a with
    | ⟨0, _⟩ => rfl
    | ⟨1, _⟩ => show (k.val * 16 + i.val) / 16 % 524288 = k.val; omega
    | ⟨2, _⟩ => rfl
    | ⟨3, _⟩ => show (k.val * 16 + i.val) % 16 = i.val; omega))

theorem f_at (k : Fin 524288) (i : Fin 16) : val_main_v13 (F := Ideal) x1 (ix2 k i) = x1 (ix4 (1 : Fin 2) k (0 : Fin 1) i) := by
  rw [val_main_v13_apply, val_main_v12_apply]
  exact congrArg x1 (funext fun a => Fin.ext (by
    have hk := k.isLt
    have hj := i.isLt
    match a with
    | ⟨0, _⟩ => rfl
    | ⟨1, _⟩ => show (k.val * 16 + i.val) / 16 % 524288 = k.val; omega
    | ⟨2, _⟩ => rfl
    | ⟨3, _⟩ => show (k.val * 16 + i.val) % 16 = i.val; omega))

/-! ## The rotated columns -/

theorem ure_at (k : Fin 524288) (j : Fin 16) : val_main_v20 (F := Ideal) x2 x3 (ix2 k j) = uRe x2 x3 k j := by
  rw [val_main_v20_apply, val_main_v16_apply, val_main_v19_apply, a_at, b_at, cos15_at, sin18_at]
  rfl

theorem uim_at (k : Fin 524288) (j : Fin 16) : val_main_v27 (F := Ideal) x2 x3 (ix2 k j) = uIm x2 x3 k j := by
  rw [val_main_v27_apply, val_main_v23_apply, val_main_v26_apply, a_at, b_at, sin22_at, cos25_at]
  rfl

/-! ## The four products over all rows -/

theorem dot28_at (i j : Fin 16) : val_main_v28 (F := Ideal) x1 x2 x3 (ix2 i j) = ∑ k : Fin 524288, eURe x1 x2 x3 i j k := by
  rw [val_main_v28_apply]
  refine Finset.sum_congr rfl fun k _ => ?_
  rw [show lidx_main_v28 (ix2 i j) k = ix2 k i from funext fun a => Fin.ext (by match a with | ⟨0, _⟩ => rfl | ⟨1, _⟩ => rfl),
    show ridx_main_v28 (ix2 i j) k = ix2 k j from funext fun a => Fin.ext (by match a with | ⟨0, _⟩ => rfl | ⟨1, _⟩ => rfl), e_at, ure_at]
  rfl

theorem dot29_at (i j : Fin 16) : val_main_v29 (F := Ideal) x1 x2 x3 (ix2 i j) = ∑ k : Fin 524288, fUIm x1 x2 x3 i j k := by
  rw [val_main_v29_apply]
  refine Finset.sum_congr rfl fun k _ => ?_
  rw [show lidx_main_v29 (ix2 i j) k = ix2 k i from funext fun a => Fin.ext (by match a with | ⟨0, _⟩ => rfl | ⟨1, _⟩ => rfl),
    show ridx_main_v29 (ix2 i j) k = ix2 k j from funext fun a => Fin.ext (by match a with | ⟨0, _⟩ => rfl | ⟨1, _⟩ => rfl), f_at, uim_at]
  rfl

theorem dot31_at (i j : Fin 16) : val_main_v31 (F := Ideal) x1 x2 x3 (ix2 i j) = ∑ k : Fin 524288, eUIm x1 x2 x3 i j k := by
  rw [val_main_v31_apply]
  refine Finset.sum_congr rfl fun k _ => ?_
  rw [show lidx_main_v31 (ix2 i j) k = ix2 k i from funext fun a => Fin.ext (by match a with | ⟨0, _⟩ => rfl | ⟨1, _⟩ => rfl),
    show ridx_main_v31 (ix2 i j) k = ix2 k j from funext fun a => Fin.ext (by match a with | ⟨0, _⟩ => rfl | ⟨1, _⟩ => rfl), e_at, uim_at]
  rfl

theorem dot32_at (i j : Fin 16) : val_main_v32 (F := Ideal) x1 x2 x3 (ix2 i j) = ∑ k : Fin 524288, fURe x1 x2 x3 i j k := by
  rw [val_main_v32_apply]
  refine Finset.sum_congr rfl fun k _ => ?_
  rw [show lidx_main_v32 (ix2 i j) k = ix2 k i from funext fun a => Fin.ext (by match a with | ⟨0, _⟩ => rfl | ⟨1, _⟩ => rfl),
    show ridx_main_v32 (ix2 i j) k = ix2 k j from funext fun a => Fin.ext (by match a with | ⟨0, _⟩ => rfl | ⟨1, _⟩ => rfl), f_at, ure_at]
  rfl

theorem re_at (i j : Fin 16) : val_main_v30 (F := Ideal) x1 x2 x3 (ix2 i j)
    = (∑ k : Fin 524288, eURe x1 x2 x3 i j k) - ∑ k : Fin 524288, fUIm x1 x2 x3 i j k := by
  rw [val_main_v30_apply, dot28_at, dot29_at]
  rfl

theorem im_at (i j : Fin 16) : val_main_v33 (F := Ideal) x1 x2 x3 (ix2 i j)
    = (∑ k : Fin 524288, eUIm x1 x2 x3 i j k) + ∑ k : Fin 524288, fURe x1 x2 x3 i j k := by
  rw [val_main_v33_apply, dot31_at, dot32_at]
  rfl

/-! ## The stack along a new leading axis, and `h` -/

theorem stack0_at (i j : Fin 16) : val_main_v37 (F := Ideal) x1 x2 x3 (ix3 (0 : Fin 2) i j) = val_main_v30 (F := Ideal) x1 x2 x3 (ix2 i j) := by
  unfold val_main_v37
  refine (concatenate_pair_apply_left (0 : Fin S2x16x16.rank) _ _ concatenates_S1x16x16_S1x16x16_S2x16x16_d0 (ix3 (0 : Fin 2) i j) rfl
    (ix3 (0 : Fin 1) i j) (fun b => by match b with | ⟨0, _⟩ => rfl | ⟨1, _⟩ => rfl | ⟨2, _⟩ => rfl)).trans ?_
  rw [val_main_v35_apply]
  exact congrArg _ (funext fun a => Fin.ext (by match a with | ⟨0, _⟩ => rfl | ⟨1, _⟩ => rfl))

theorem stack1_at (i j : Fin 16) : val_main_v37 (F := Ideal) x1 x2 x3 (ix3 (1 : Fin 2) i j) = val_main_v33 (F := Ideal) x1 x2 x3 (ix2 i j) := by
  unfold val_main_v37
  refine (concatenate_pair_apply_right (0 : Fin S2x16x16.rank) _ _ concatenates_S1x16x16_S1x16x16_S2x16x16_d0 (ix3 (1 : Fin 2) i j) rfl rfl
    (ix3 (0 : Fin 1) i j) (fun b hb => by
      match b, hb with
      | ⟨0, _⟩, hb => exact absurd rfl hb
      | ⟨1, _⟩, _ => rfl
      | ⟨2, _⟩, _ => rfl) rfl).trans ?_
  rw [val_main_v36_apply]
  exact congrArg _ (funext fun a => Fin.ext (by match a with | ⟨0, _⟩ => rfl | ⟨1, _⟩ => rfl))

theorem h_at (s : Fin 2) (i j : Fin 16) : val_main_v34 (F := Ideal) x0 (ix3 s i j) = x0 (ix5 s (0 : Fin 1) (0 : Fin 1) i j) := by
  rw [val_main_v34_apply]
  exact congrArg x0 (funext fun a => Fin.ext (by
    have hs := s.isLt
    have hi := i.isLt
    have hj := j.isLt
    match a with
    | ⟨0, _⟩ => show ((s.val * 16 + i.val) * 16 + j.val) / 256 = s.val; omega
    | ⟨1, _⟩ => rfl
    | ⟨2, _⟩ => rfl
    | ⟨3, _⟩ => show ((s.val * 16 + i.val) * 16 + j.val) / 16 % 16 = i.val; omega
    | ⟨4, _⟩ => show ((s.val * 16 + i.val) * 16 + j.val) % 16 = j.val; omega))

/-! ## The reference's result -/

/-- The real part. -/
theorem ref_re (i j : Fin 16) : val_main_v38 (F := Ideal) x0 x1 x2 x3 (ix3 (0 : Fin 2) i j)
    = x0 (ix5 (0 : Fin 2) (0 : Fin 1) (0 : Fin 1) i j)
      + ((∑ k : Fin 524288, eURe x1 x2 x3 i j k) - ∑ k : Fin 524288, fUIm x1 x2 x3 i j k) := by
  rw [val_main_v38_apply, h_at, stack0_at, re_at]
  rfl

/-- The imaginary part. -/
theorem ref_im (i j : Fin 16) : val_main_v38 (F := Ideal) x0 x1 x2 x3 (ix3 (1 : Fin 2) i j)
    = x0 (ix5 (1 : Fin 2) (0 : Fin 1) (0 : Fin 1) i j)
      + ((∑ k : Fin 524288, eUIm x1 x2 x3 i j k) + ∑ k : Fin 524288, fURe x1 x2 x3 i j k) := by
  rw [val_main_v38_apply, h_at, stack1_at, im_at]
  rfl

end Cert.ReferenceIdeal.RefValue

end
-- ==== Proof.LibRealSums.lean ====
/-
  The law that joins the tiled accumulation to the whole contraction.

  The kernel forms, tile by tile, `∑ r, P - ∑ r, Q` over the tile's rows and adds these up; the reference forms
  `∑ m, P - ∑ m, Q` over all rows at once. Moving a difference across a sum is not a law of the extended reals (at
  `⊤ - ⊤` it fails); it is a law of the real numbers, so it holds where every term is a real number. The sum
  `∑ P + ∑ Q` of the imaginary part needs no such care: sums of sums re-associate in any commutative monoid.
-/
import Mathlib.Algebra.BigOperators.Fin
import Mathlib.Tactic.Ring
import proofs.«101659_j45552423141376_1_alg».proof.Proof.LibReal
import proofs.«101659_j45552423141376_1_alg».proof.Proof.LibTiles

noncomputable section

namespace Cert.RealSums

open Cert.LibReal Cert.SumSplit

/-- Among real numbers, a finite sum of differences is the difference of the sums. -/
theorem sum_sub_of_isR {ι : Type*} (s : Finset ι) (f g : ι → EReal) (hf : ∀ i ∈ s, IsR (f i)) (hg : ∀ i ∈ s, IsR (g i)) :
    ∑ i ∈ s, (f i - g i) = ∑ i ∈ s, f i - ∑ i ∈ s, g i := by
  classical
  induction s using Finset.induction_on with
  | empty => simp
  | insert a s ha ih =>
    have hfs : ∀ i ∈ s, IsR (f i) := fun i hi => hf i (Finset.mem_insert_of_mem hi)
    have hgs : ∀ i ∈ s, IsR (g i) := fun i hi => hg i (Finset.mem_insert_of_mem hi)
    rw [Finset.sum_insert ha, Finset.sum_insert ha, Finset.sum_insert ha, ih hfs hgs]
    obtain ⟨x, hx⟩ := hf a (Finset.mem_insert_self a s)
    obtain ⟨y, hy⟩ := hg a (Finset.mem_insert_self a s)
    obtain ⟨u, hu⟩ := IsR.sum s f hfs
    obtain ⟨v, hv⟩ := IsR.sum s g hgs
    rw [hx, hy, hu, hv, ← EReal.coe_sub, ← EReal.coe_sub, ← EReal.coe_add, ← EReal.coe_add, ← EReal.coe_add, ← EReal.coe_sub]
    exact congrArg _ (by ring)

/-- Differences of tile sums, added over the tiles, are the difference of the whole sums — for real terms. -/
theorem tiles_sub {a b n : ℕ} (h : a * b = n) (P Q : Fin n → EReal) (hP : ∀ m, IsR (P m)) (hQ : ∀ m, IsR (Q m)) :
    ∑ t : Fin a, ((∑ r : Fin b, P (row h t r)) - ∑ r : Fin b, Q (row h t r)) = (∑ m, P m) - ∑ m, Q m := by
  rw [sum_tiles h P, sum_tiles h Q]
  exact sum_sub_of_isR _ _ _ (fun t _ => IsR.sum _ _ fun r _ => hP _) (fun t _ => IsR.sum _ _ fun r _ => hQ _)

/-- Sums of tile sums, added over the tiles, are the sum of the whole sums. -/
theorem tiles_add {a b n : ℕ} (h : a * b = n) (P Q : Fin n → EReal) :
    ∑ t : Fin a, ((∑ r : Fin b, P (row h t r)) + ∑ r : Fin b, Q (row h t r)) = (∑ m, P m) + ∑ m, Q m := by
  rw [sum_tiles h P, sum_tiles h Q, Finset.sum_add_distrib]

end Cert.RealSums

end
-- ==== Proof.Bridge.lean ====
/-
  The two programs compute one function of the arguments, where the arguments hold real numbers.

  At `(s, i, j)` the kernel's program gives `h (s, i, j) + (0 + (first half's total + second half's total))`, each
  half's total the sum of its eight tile contributions. The sixteen tile contributions, in grid order, are the
  contributions of the sixteen tiles of rows of the arguments; their sum is the difference (real part) or the sum
  (imaginary part) of the two whole sums over all 524288 rows that the reference forms — the real part by the law of
  real numbers that a sum of differences is the difference of the sums.
-/
import proofs.«101659_j45552423141376_1_alg».proof.Proof.KernelResult
import proofs.«101659_j45552423141376_1_alg».proof.Proof.TileArgs
import proofs.«101659_j45552423141376_1_alg».proof.Proof.RefValue
import proofs.«101659_j45552423141376_1_alg».proof.Proof.LibRealSums

noncomputable section

namespace Cert.Bridge

open Idealize.ShloMosaic Idealize.ShloMosaic.TcCoe Idealize.ShloMosaic.ValueIdx Idealize.SL.Sem Cert.KernelIdeal Cert.KernelIdeal.Gen
open Cert.KernelIdeal.Acc Cert.KernelIdeal.Blocks Cert.KernelIdeal.TileArgs Cert.KernelIdeal.Result Cert.Spec Cert.LibReal Cert.SumSplit

variable (m : (ℓ : Loc nD τ sig) → Buf (Elt Ideal) ℓ)

/-- The contribution of tile `t` of the sixteen, as sums over that tile's rows of the arguments. -/
theorem tReN_eq (c : Dev nD) (t : Fin 16) (i j : Fin 16) :
    tReN m c t.val i j
      = (∑ r : Fin 32768, eURe (giOf m c) (gjOf m c) (thOf m c) i j (row (a := 16) (b := 32768) rfl t r))
        - ∑ r : Fin 32768, fUIm (giOf m c) (gjOf m c) (thOf m c) i j (row (a := 16) (b := 32768) rfl t r) := by
  have h : t.val < cfg0.N := lt_of_lt_of_eq t.isLt N_0.symm
  unfold tReN
  rw [dif_pos h, tRe_args]
  rfl

theorem tImN_eq (c : Dev nD) (t : Fin 16) (i j : Fin 16) :
    tImN m c t.val i j
      = (∑ r : Fin 32768, eUIm (giOf m c) (gjOf m c) (thOf m c) i j (row (a := 16) (b := 32768) rfl t r))
        + ∑ r : Fin 32768, fURe (giOf m c) (gjOf m c) (thOf m c) i j (row (a := 16) (b := 32768) rfl t r) := by
  have h : t.val < cfg0.N := lt_of_lt_of_eq t.isLt N_0.symm
  unfold tImN
  rw [dif_pos h, tIm_args]
  rfl

/-- The two halves' eight contributions each are the sixteen contributions in order. -/
theorem halves_eq (f : ℕ → EReal) :
    (∑ k ∈ Finset.range 8, f (8 * 0 + k)) + (∑ k ∈ Finset.range 8, f (8 * 1 + k)) = ∑ t : Fin 16, f t.val := by
  rw [Fin.sum_univ_eq_sum_range f 16, show (16 : ℕ) = 8 + 8 from rfl, Finset.sum_range_add]
  simp only [Nat.mul_zero, Nat.zero_add, Nat.mul_one]

/-- The kernel's real part: the two halves' totals are the difference of the whole sums. -/
theorem kernel_re (c : Dev nD) (i j : Fin 16) (hi : ∀ y, IsR (giOf m c y)) (hj : ∀ y, IsR (gjOf m c y)) (ht : ∀ y, IsR (thOf m c y)) :
    halfSum m c 0 (0 : Fin 2) i j + halfSum m c 1 (0 : Fin 2) i j
      = (∑ k : Fin 524288, eURe (giOf m c) (gjOf m c) (thOf m c) i j k) - ∑ k : Fin 524288, fUIm (giOf m c) (gjOf m c) (thOf m c) i j k := by
  have e : ∀ half : ℕ, halfSum m c half (0 : Fin 2) i j = ∑ k ∈ Finset.range 8, tReN m c (8 * half + k) i j := fun _ => if_pos rfl
  rw [e 0, e 1, halves_eq (fun n => tReN m c n i j), Finset.sum_congr rfl fun t _ => tReN_eq m c t i j]
  exact Cert.RealSums.tiles_sub (a := 16) (b := 32768) rfl (eURe (giOf m c) (gjOf m c) (thOf m c) i j) (fUIm (giOf m c) (gjOf m c) (thOf m c) i j)
    (fun k => isR_eURe hi hj ht i j k) (fun k => isR_fUIm hi hj ht i j k)

/-- The kernel's imaginary part: the two halves' totals are the sum of the whole sums. -/
theorem kernel_im (c : Dev nD) (i j : Fin 16) :
    halfSum m c 0 (1 : Fin 2) i j + halfSum m c 1 (1 : Fin 2) i j
      = (∑ k : Fin 524288, eUIm (giOf m c) (gjOf m c) (thOf m c) i j k) + ∑ k : Fin 524288, fURe (giOf m c) (gjOf m c) (thOf m c) i j k := by
  have e : ∀ half : ℕ, halfSum m c half (1 : Fin 2) i j = ∑ k ∈ Finset.range 8, tImN m c (8 * half + k) i j :=
    fun _ => if_neg (Nat.succ_ne_zero 0)
  rw [e 0, e 1, halves_eq (fun n => tImN m c n i j), Finset.sum_congr rfl fun t _ => tImN_eq m c t i j]
  exact Cert.RealSums.tiles_add (a := 16) (b := 32768) rfl (eUIm (giOf m c) (gjOf m c) (thOf m c) i j) (fURe (giOf m c) (gjOf m c) (thOf m c) i j)

/-- THE BRIDGE: where `gi`, `gj` and the angles hold real numbers, the kernel's program and the reference end with
    the same array. -/
theorem result_eq (c : Dev nD) (hi : ∀ y, IsR (giOf m c y)) (hj : ∀ y, IsR (gjOf m c y)) (ht : ∀ y, IsR (thOf m c y)) :
    Cert.ReferenceIdeal.Read.val_main_v38 (F := Ideal) (m ((c.tc : Thread nD τ).loc main_arg0)) (m ((c.tc : Thread nD τ).loc main_arg1))
        (m ((c.tc : Thread nD τ).loc main_arg2)) (m ((c.tc : Thread nD τ).loc main_arg3))
      = result m c := by
  funext y
  obtain ⟨s, i, j, rfl⟩ : ∃ (s : Fin 2) (i j : Fin 16), y = ix3 s i j := ⟨y 0, y 1, y 2, eq_ix3 y⟩
  refine Eq.trans ?_ (result_apply m c s i j).symm
  have hh : hEntry m c s i j = (m ((c.tc : Thread nD τ).loc main_arg0) : S2x1x1x16x16.Idx → Elt Ideal .f32) (ix5 s (0 : Fin 1) (0 : Fin 1) i j) :=
    h_apply m c s i j
  rw [hh, zero_add]
  have hs : s = 0 ∨ s = 1 := by
    rcases s with ⟨v, hv⟩
    have hv' : v = 0 ∨ v = 1 := by omega
    rcases hv' with rfl | rfl
    · exact Or.inl rfl
    · exact Or.inr rfl
  rcases hs with rfl | rfl
  · rw [kernel_re m c i j hi hj ht]
    exact Cert.ReferenceIdeal.RefValue.ref_re _ _ _ _ i j
  · rw [kernel_im m c i j]
    exact Cert.ReferenceIdeal.RefValue.ref_im _ _ _ _ i j

end Cert.Bridge

end
-- ==== Proof.lean ====
/-
  A complex bilinear form over a long axis, accumulated tile by tile, against one whole contraction.

  With `e, f` the two planes of `gi` (`[M, 16]` each, `M = 524288`), `a, b` those of `gj`, and the rotation
      u_re (k, j) = a (k, j) cos θ₀ k - b (k, j) sin θ₁ k,        u_im (k, j) = a (k, j) sin θ₁ k + b (k, j) cos θ₀ k,
  both programs return, at `(0, i, j)`, `h₀ (i, j) + (∑ k, e (k, i) u_re (k, j) - ∑ k, f (k, i) u_im (k, j))` and, at
  `(1, i, j)`, `h₁ (i, j) + (∑ k, e (k, i) u_im (k, j) + ∑ k, f (k, i) u_re (k, j))`.

  The reference forms the four sums over all `M` rows at once. The kernel cuts the rows into 16 tiles of 32768, walks
  them in two halves of eight, and in each half keeps two `[16, 16]` accumulators: reset to zero at the half's first
  tile, each tile adding `∑ r, e u_re - ∑ r, f u_im` (and `∑ r, e u_im + ∑ r, f u_re`) over the tile's rows, written out
  after the half's last tile; the host then adds the two halves from zero and adds `h`. A matrix product into a zero
  accumulator, the host's contraction, and a change of tiling are all the same finite sum over the extended reals, in
  some order. What is NOT free there is moving the difference across the sum of the tiles: `∑ₜ (Aₜ - Bₜ) = ∑ₜ Aₜ - ∑ₜ Bₜ`
  is a law of the real numbers, false at `⊤ - ⊤`. So the proof uses the precondition: every entry of every argument is a
  real number, hence (the cosine and sine of a real being real) so is every term summed, and the law applies. The
  imaginary part needs no such care.

  The kernel's and the reference's frames are the generated frame certificates; the reference's frame is its generated
  run with the result dropped. The idealization rewrote nothing, so it is preserved trivially.
-/
import proofs.«101659_j45552423141376_1_alg».proof.Defs
import proofs.«101659_j45552423141376_1_alg».proof.Proof.Gen.Kernel
import proofs.«101659_j45552423141376_1_alg».proof.Proof.Gen.Kernel.Skeleton
import proofs.«101659_j45552423141376_1_alg».proof.Proof.Gen.Kernel.Launch
import proofs.«101659_j45552423141376_1_alg».proof.Proof.Gen.Kernel.Points
import proofs.«101659_j45552423141376_1_alg».proof.Proof.Gen.Kernel.Frame
import proofs.«101659_j45552423141376_1_alg».proof.Proof.Gen.KernelIdeal
import proofs.«101659_j45552423141376_1_alg».proof.Proof.Gen.KernelIdeal.Skeleton
import proofs.«101659_j45552423141376_1_alg».proof.Proof.Gen.KernelIdeal.Launch
import proofs.«101659_j45552423141376_1_alg».proof.Proof.Gen.KernelIdeal.Points
import proofs.«101659_j45552423141376_1_alg».proof.Proof.Gen.KernelIdeal.Frame
import proofs.«101659_j45552423141376_1_alg».proof.Proof.Gen.ReferenceIdeal
import proofs.«101659_j45552423141376_1_alg».proof.Proof.Gen.ReferenceIdeal.Run
import proofs.«101659_j45552423141376_1_alg».proof.Proof.Gen.ReferenceIdeal.Read
import proofs.«101659_j45552423141376_1_alg».proof.Proof.Gen.Pre_finite_inputs
import proofs.«101659_j45552423141376_1_alg».proof.Proof.FiniteArgs
import proofs.«101659_j45552423141376_1_alg».proof.Proof.Bridge
import Idealize.ShloMosaic.Adequacy
import Idealize.ShloMosaic.Init

noncomputable section

namespace Cert.Proof

open Idealize.ShloMosaic Idealize.SL.Sem

/-- The kernel's program runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: nothing to preserve. -/
theorem preserves : Cert.preserves_Kernel_KernelIdeal := trivial

/-- From memories that agree on the four arguments, all of whose entries are real numbers, the kernel's program ends
    with its result array at the tiled accumulation plus `h`, the reference with its at the whole contraction plus `h`:
    the same array. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3⟩ := Cert.FiniteArgs.isR_of_pre _ _ _ _ (hpre c)
  rw [Cert.ReferenceIdeal.Read.val_main_v38_eq, (hagree c).1, (hagree c).2.1, (hagree c).2.2.1, (hagree c).2.2.2]
  exact Cert.Bridge.result_eq m c h1 h2 h3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
